-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000x128, .f32⟩
  | .hbm, ⟨34, _⟩ => ⟨S_, .f32⟩
  | .hbm, ⟨35, _⟩ => ⟨S100000x128, .f32⟩
  | .hbm, ⟨36, _⟩ => ⟨S1700000x1, .i32⟩
  | .hbm, ⟨37, _⟩ => ⟨S100000x128, .f32⟩
  | .hbm, ⟨38, _⟩ => ⟨S1x128, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S_, .f32⟩
  | .hbm, ⟨50, _⟩ => ⟨S100000x64, .f32⟩
  | .hbm, ⟨51, _⟩ => ⟨S1700000x1, .i32⟩
  | .hbm, ⟨52, _⟩ => ⟨S100000x64, .f32⟩
  | .hbm, ⟨53, _⟩ => ⟨S1x64, .f32⟩
  | .hbm, ⟨54, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_v64 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's whole run with its RESULT named: every weakly fair execution of @main terminates, nothing
  faulting, the result array ends at the contents the last segment boundary gives it — the fold of the three host
  stretches and the three regions' write-backs over the launch memory — and the argument arrays end as launched.
-/
import proofs.«163434_j85229331021973_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main's six segments from the launch memory, read at the end against the final state: the result
    buffer holds the last boundary's contents, each argument its launch contents. -/
theorem run_out : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunOut

end
-- ==== Proof.RefShared.lean ====
/-
  The graph side of the layer, named once over the reference's own stages: for the edge list with its appended
  self loops, each edge's source row and target row as a gather reads them (the negative-index wrap, then the
  clamp into the table), which node an edge's message lands on (the scatter's raw target index), and each node's
  factor (the inverse square root of its in-degree clipped below at one).
-/
import proofs.«163434_j85229331021973_2_alg».proof.Proof.Gen.ReferenceIdeal.Read
import Idealize.ShloMosaic.Lib.ValueIdx

noncomputable section

namespace Cert.Gcn.Ref

open Cert.ReferenceIdeal Cert.ReferenceIdeal.Read Idealize.ShloMosaic Idealize.ShloMosaic.ValueIdx

/-- The edge list as an argument array. -/
abbrev Edges : Type := (⟨S2x1600000, .i32⟩ : BufTy).Contents (Elt Ideal)

/-- Node `n`'s factor. -/
def dnode (x5 : Edges) (n : Fin 100000) : EReal := val_main_v13 (F := Ideal) x5 (ix1 n)

/-- The table row a gather reads for edge `e`'s source. -/
def srcRow (x5 : Edges) (e : Fin 1700000) : Fin 100000 :=
  ⟨min (val_main_v18 (F := Ideal) x5 (ix1 e)).toInt.toNat (100000 - 1), by omega⟩

/-- The table row a gather reads for edge `e`'s target. -/
def dstRow (x5 : Edges) (e : Fin 1700000) : Fin 100000 :=
  ⟨min (val_main_v25 (F := Ideal) x5 (ix1 e)).toInt.toNat (100000 - 1), by omega⟩

/-- Edge `e`'s message lands on node `n`. -/
def hits (x5 : Edges) (e : Fin 1700000) (n : Fin 100000) : Prop :=
  (val_main_v6 (F := Ideal) x5 (ix1 e)).toInt = ((n.val : ℕ) : ℤ)

instance (x5 : Edges) (e : Fin 1700000) (n : Fin 100000) : Decidable (hits x5 e n) := by
  unfold hits; infer_instance

end Cert.Gcn.Ref

end
-- ==== Proof.Spec.lean ====
/-
  The two dense building blocks of a graph-convolution layer whose edge normalisation has been factored into
  per-node scalings, as functions of whole arrays over the extended reals, index by index.

  * `denseScaled x W d`: entry `(n, f)` is `(Σ_k x[n, k] · W[k, f]) · d[n]` — a dense layer whose output row
    `n` is scaled by the node's factor `d[n]` (kept as a column `[N, 1]`);
  * `scaleBiasRelu a d b`: entry `(n, f)` is `max (a[n, f] · d[n] + b[f]) 0` — the aggregated row scaled by the
    node's factor, plus the bias (kept as a row `[1, H]`), clipped below at zero.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals. -/
abbrev M2 (a b : Nat) : Type := (⟨2, ![a, b]⟩ : Shape).Idx → EReal

/-- The row and the column of a matrix index, at their literal extents. -/
abbrev rowOf {a b : Nat} (i : (⟨2, ![a, b]⟩ : Shape).Idx) : Fin a := ⟨(i 0).val, idx2_lt0 i⟩
abbrev colOf {a b : Nat} (i : (⟨2, ![a, b]⟩ : Shape).Idx) : Fin b := ⟨(i 1).val, idx2_lt1 i⟩
/-- The one coordinate of a unit axis. -/
abbrev z1 : Fin 1 := ⟨0, Nat.one_pos⟩

/-- A dense layer with its output rows scaled: `(Σ_k x[n, k] · W[k, f]) · d[n]`. -/
def denseScaled {N K H : Nat} (x : M2 N K) (W : M2 K H) (d : M2 N 1) : M2 N H :=
  fun i => (∑ k : Fin K, x (ix2 (rowOf i) k) * W (ix2 k (colOf i))) * d (ix2 (rowOf i) z1)

/-- Rows scaled, bias added, clipped at zero: `max (a[n, f] · d[n] + b[f]) 0`. -/
def scaleBiasRelu {N H : Nat} (a : M2 N H) (d : M2 N 1) (b : M2 1 H) : M2 N H :=
  fun i => max (a i * d (ix2 (rowOf i) z1) + b (ix2 z1 (colOf i))) 0

end Cert.Gcn

end
-- ==== Proof.KernelSpec.lean ====
/-
  The idealized kernel's result, named as one function of the argument arrays.

  The graph quantities — the edge list with self loops, which node an edge lands on, which table row a gather reads
  for an edge, each node's factor — are the same host operations the reference applies, so they are taken from the
  reference's stages and never opened.  Over them: the node factors as the `[N, 1]` column the regions read, a bias as
  the `[1, H]` row they read, the neighbour aggregation (rows gathered along the edges' sources, added up at the
  edges' targets), and the two layers.
-/
import proofs.«163434_j85229331021973_2_alg».proof.Proof.Gen.KernelIdeal
import proofs.«163434_j85229331021973_2_alg».proof.Proof.RefShared
import proofs.«163434_j85229331021973_2_alg».proof.Proof.Spec

noncomputable section

namespace Cert.KernelIdeal.KValue

open Cert.KernelIdeal Cert.KernelIdeal.Gen Idealize.ShloMosaic Idealize.ShloMosaic.ValueIdx Cert.Gcn

/-- The node factors as the column the regions read. -/
def dcol (x5 : Cert.Gcn.Ref.Edges) : S100000x1.Idx → EReal :=
  shapeCast S100000x1 (Cert.ReferenceIdeal.Read.val_main_v13 (F := Ideal) x5) shapeCasts_S100000_S100000x1

/-- The first layer's bias as the row region two reads. -/
def b1row (x2 : S128.Idx → EReal) : S1x128.Idx → EReal := shapeCast S1x128 x2 shapeCasts_S128_S1x128

/-- The second layer's bias as the row region three reads. -/
def b2row (x4 : S64.Idx → EReal) : S1x64.Idx → EReal := shapeCast S1x64 x4 shapeCasts_S64_S1x64

/-- Rows of `y` gathered along the edges' sources and added up at the edges' targets, 128 columns wide. -/
def agg128 (y : S100000x128.Idx → EReal) (x5 : Cert.Gcn.Ref.Edges) : S100000x128.Idx → EReal :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 (Cert.ReferenceIdeal.Read.val_main_v6 (F := Ideal) x5))
    (Host.gather gather_S100000x128_S1700000x1_S1700000x128_1_0_n_n_0_1_1128 y
      (broadcastInDim S1700000x1 ![0] bcast_S1700000_S1700000x1_0 (Cert.ReferenceIdeal.Read.val_main_v18 (F := Ideal) x5)))

/-- The same, 64 columns wide. -/
def agg64 (y : S100000x64.Idx → EReal) (x5 : Cert.Gcn.Ref.Edges) : S100000x64.Idx → EReal :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 (Cert.ReferenceIdeal.Read.val_main_v6 (F := Ideal) x5))
    (Host.gather gather_S100000x64_S1700000x1_S1700000x64_1_0_n_n_0_1_164 y
      (broadcastInDim S1700000x1 ![0] bcast_S1700000_S1700000x1_0 (Cert.ReferenceIdeal.Read.val_main_v18 (F := Ideal) x5)))

/-- The first layer's activation as the kernel forms it. -/
def h1K (x0 : S100000x128.Idx → EReal) (x1 : S128x128.Idx → EReal) (x2 : S128.Idx → EReal) (x5 : Cert.Gcn.Ref.Edges) :
    S100000x128.Idx → EReal :=
  scaleBiasRelu (agg128 (denseScaled x0 x1 (dcol x5)) x5) (dcol x5) (b1row x2)

/-- The kernel's result. -/
def kOut (x0 : S100000x128.Idx → EReal) (x1 : S128x128.Idx → EReal) (x2 : S128.Idx → EReal) (x3 : S128x64.Idx → EReal)
    (x4 : S64.Idx → EReal) (x5 : Cert.Gcn.Ref.Edges) : S100000x64.Idx → EReal :=
  scaleBiasRelu (agg64 (denseScaled (h1K x0 x1 x2 x5) x3 (dcol x5)) x5) (dcol x5) (b2row x4)

end Cert.KernelIdeal.KValue

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.Region0.lean ====
/-
  The first kernel region (a dense layer on row blocks, each output row scaled by its node's factor) read as one
  function of whole arrays.
-/
import proofs.«163434_j85229331021973_2_alg».proof.Proof.Gen.KernelIdeal.Frame
import Idealize.ShloMosaic.Lib.Pipeline.Value
import Idealize.ShloMosaic.Lib.ValueIdx
import Idealize.ShloMosaic.PureOps.Ideal.Laws
import proofs.«163434_j85229331021973_2_alg».proof.Proof.LibMatmulEntry
import proofs.«163434_j85229331021973_2_alg».proof.Proof.Spec

set_option pp.maxSteps 5000
set_option pp.deepTerms false

noncomputable section

namespace Cert.KernelIdeal.Region0

open Cert.KernelIdeal Cert.KernelIdeal.Gen Idealize.ShloMosaic Idealize.ShloMosaic.TcCoe Idealize.SL.Sem
open Idealize.ShloMosaic.ValueIdx Cert.Gcn
open Idealize.ShloMosaic.Pipeline (Dat)

theorem hz : (![0, 0] : Fin 2 → Nat) = fun _ => 0 := funext fun a => by fin_cases a <;> rfl

/-- The body's stored value at entry `(p, q)` of the block: row `p` of the left block against column `q` of the
    weights, times the row's factor. -/
theorem pay_at (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p z1) := by
  unfold k0_pay1
  rw [shapeCast_self]
  have e2 : broadcastTo S5000x128 x2 broadcasts_S5000x1_S5000x128 (ix2 p q) = x2 (ix2 p z1) :=
    broadcastTo_apply x2 _ (ix2 p q) _ (fun a => by match a with | ⟨0, _⟩ => rfl | ⟨1, _⟩ => rfl)
  have e1 := Ideal.matmul_rows_cols (M := 5000) (K := 128) (N := 128) (φ₁ := .bf16) (φ₂ := .bf16)
    dot_S5000x128_S128x128_S5000x128_1_0_0_1_n_n rfl rfl rfl rfl rfl rfl none
    (truncf .bf16 x0 bitsLt_bf16_f32) (truncf .bf16 x1 bitsLt_bf16_f32) p q
  exact congrArg₂ (· * ·) e1 e2

variable (V : (c : Dev nD) → (b : Ref sig .tc) → Buf (Elt Ideal) ((c : Thread nD τ).loc b))

/-- The whole-array function the region computes, of the arrays as the region finds them. -/
abbrev G (c : Dev nD) : S100000x128.Idx → EReal :=
  denseScaled (V c main_arg0) (V c main_arg1) (V c main_v14)

theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 :=
  (by decide +kernel : ∀ t : Fin grid0.N, _)

theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨e00, e01, e10, e11, e20, e21, e31⟩ := idx_facts t
  show k0_pay1 (iblk0 V c 0 t) (iblk0 V c 1 t) (iblk0 V c 2 t) j = G V c (((cfg0.win 3).blk t).view.emb j)
  refine (congrArg (k0_pay1 (iblk0 V c 0 t) (iblk0 V c 1 t) (iblk0 V c 2 t)) (eq_ix2 j)).trans ?_
  refine (pay_at _ _ _ (rowOf j) (colOf j)).trans ?_
  have hj0 : (j 0).val < 5000 := (j 0).isLt
  have hj1 : (j 1).val < 128 := (j 1).isLt
  have r0 : ∀ k : Fin 128, iblk0 V c 0 t (ix2 (rowOf j) k) = V c main_arg0 (ix2 (rowOf (((cfg0.win 3).blk t).view.emb j)) k) := by
    intro k
    show V c main_arg0 (((cfg0.win 0).blk t).view.emb (ix2 (rowOf j) k)) = _
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have r1 : ∀ k : Fin 128, iblk0 V c 1 t (ix2 k (colOf j)) = V c main_arg1 (ix2 k (colOf (((cfg0.win 3).blk t).view.emb j))) := by
    intro k
    show V c main_arg1 (((cfg0.win 1).blk t).view.emb (ix2 k (colOf j))) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have r2 : iblk0 V c 2 t (ix2 (rowOf j) z1) = V c main_v14 (ix2 (rowOf (((cfg0.win 3).blk t).view.emb j)) z1) := by
    show V c main_v14 (((cfg0.win 2).blk t).view.emb (ix2 (rowOf j) z1)) = _
    refine congrArg _ (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  rw [r2, Finset.sum_congr rfl (fun k _ => by rw [r0 k, r1 k])]
  rfl

theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

theorem idx_onto : ∀ q : Fin 20, ∃ t : Fin cfg0.N, win0_3.index t = ![q.val, 0] :=
  (by decide +kernel : ∀ q : Fin 20, ∃ t : Fin grid0.N, win0_3.index t = ![q.val, 0])

theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE REGION'S OUTPUT ARRAY after its last write-back, as one function of the arrays it was entered with. -/
theorem final (c : Dev nD) : (dat0 V c).arrAt 3 cfg0.N = G V c :=
  (dat0 V c).arrAt_eq_of_cover 3 (G V c) (fun t _ => flushed_eq V c t) (cover)

end Cert.KernelIdeal.Region0

end
-- ==== Proof.Region1.lean ====
/-
  The second kernel region (rows scaled, bias added, clipped at zero; then a dense layer on the result, each output
  row scaled again by its node's factor) read as one function of whole arrays.
-/
import proofs.«163434_j85229331021973_2_alg».proof.Proof.Gen.KernelIdeal.Frame
import Idealize.ShloMosaic.Lib.Pipeline.Value
import Idealize.ShloMosaic.Lib.ValueIdx
import Idealize.ShloMosaic.PureOps.Ideal.Laws
import proofs.«163434_j85229331021973_2_alg».proof.Proof.LibMatmulEntry
import proofs.«163434_j85229331021973_2_alg».proof.Proof.Spec

set_option pp.maxSteps 5000
set_option pp.deepTerms false

noncomputable section

namespace Cert.KernelIdeal.Region1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

theorem hz : (![0, 0] : Fin 2 → Nat) = fun _ => 0 := funext fun a => by fin_cases a <;> rfl

/-- The hidden activation the body forms before its matrix product, at entry `(p, k)`. -/
theorem hidden_at (x0 : Vec Ideal S5000x128 .f32) (x1 : Vec Ideal S5000x1 .f32) (x2 : Vec Ideal S1x128 .f32)
    (p : Fin 5000) (k : Fin 128) :
    maximumf (addf (mulf x0 (broadcastTo S5000x128 x1 broadcasts_S5000x1_S5000x128))
        (broadcastTo S5000x128 x2 broadcasts_S1x128_S5000x128))
      (broadcast S5000x128 (Scalar.ofBits (F := Ideal) .f32 0x00000000#32)) (ix2 p k)
      = max (x0 (ix2 p k) * x1 (ix2 p z1) + x2 (ix2 z1 k)) 0 := by
  have e1 : broadcastTo S5000x128 x1 broadcasts_S5000x1_S5000x128 (ix2 p k) = x1 (ix2 p z1) :=
    broadcastTo_apply x1 _ (ix2 p k) _ (fun a => by match a with | ⟨0, _⟩ => rfl | ⟨1, _⟩ => rfl)
  have e2 : broadcastTo S5000x128 x2 broadcasts_S1x128_S5000x128 (ix2 p k) = x2 (ix2 z1 k) :=
    broadcastTo_apply x2 _ (ix2 p k) _ (fun a => by match a with | ⟨0, _⟩ => rfl | ⟨1, _⟩ => rfl)
  show max (x0 (ix2 p k) * broadcastTo S5000x128 x1 broadcasts_S5000x1_S5000x128 (ix2 p k)
      + broadcastTo S5000x128 x2 broadcasts_S1x128_S5000x128 (ix2 p k)) (Ideal.ofBits .f32 0#32) = _
  rw [e1, e2, Ideal.ofBits_zero_f32]

/-- The body's stored value at entry `(p, q)` of the block. -/
theorem pay_at (x0 : Vec Ideal S5000x128 .f32) (x1 : Vec Ideal S5000x1 .f32) (x2 : Vec Ideal S1x128 .f32)
    (x3 : Vec Ideal S128x64 .f32) (x4 : Vec Ideal S5000x1 .f32) (p : Fin 5000) (q : Fin 64) :
    k1_pay1 x0 x1 x2 x3 x4 (ix2 p q)
      = (∑ k : Fin 128, max (x0 (ix2 p k) * x1 (ix2 p z1) + x2 (ix2 z1 k)) 0 * x3 (ix2 k q)) * x4 (ix2 p z1) := by
  unfold k1_pay1
  rw [shapeCast_self, shapeCast_self, shapeCast_self, shapeCast_self]
  have e4 : broadcastTo S5000x64 x4 broadcasts_S5000x1_S5000x64 (ix2 p q) = x4 (ix2 p z1) :=
    broadcastTo_apply x4 _ (ix2 p q) _ (fun a => by match a with | ⟨0, _⟩ => rfl | ⟨1, _⟩ => rfl)
  have e1 := Ideal.matmul_rows_cols (M := 5000) (K := 128) (N := 64) (φ₁ := .bf16) (φ₂ := .bf16)
    dot_S5000x128_S128x64_S5000x64_1_0_0_1_n_n rfl rfl rfl rfl rfl rfl none
    (truncf .bf16 (maximumf (addf (mulf x0 (broadcastTo S5000x128 x1 broadcasts_S5000x1_S5000x128))
        (broadcastTo S5000x128 x2 broadcasts_S1x128_S5000x128))
      (broadcast S5000x128 (Scalar.ofBits (F := Ideal) .f32 0x00000000#32))) bitsLt_bf16_f32)
    (truncf .bf16 x3 bitsLt_bf16_f32) p q
  refine (congrArg₂ (· * ·) e1 e4).trans ?_
  refine congrArg (· * x4 (ix2 p z1)) (Finset.sum_congr rfl fun k _ => ?_)
  exact congrArg (· * x3 (ix2 k q)) (hidden_at x0 x1 x2 p k)

variable (V : (c : Dev nD) → (b : Ref sig .tc) → Buf (Elt Ideal) ((c : Thread nD τ).loc b))

/-- The whole-array function the region computes, of the arrays as the region finds them. -/
abbrev G (c : Dev nD) : S100000x64.Idx → EReal :=
  denseScaled (scaleBiasRelu (V c main_v25) (V c main_v14) (V c main_v26)) (V c main_arg3) (V c main_v14)

theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 :=
  (by decide +kernel : ∀ t : Fin grid1.N, _)

theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x64) hz]
  funext j
  obtain ⟨e00, e01, e10, e11, e20, e21, e30, e31, e41⟩ := idx_facts t
  show k1_pay1 (iblk1 V c 0 t) (iblk1 V c 1 t) (iblk1 V c 2 t) (iblk1 V c 3 t) (iblk1 V c 1 t) j = G V c (((cfg1.win 4).blk t).view.emb j)
  refine (congrArg (k1_pay1 (iblk1 V c 0 t) (iblk1 V c 1 t) (iblk1 V c 2 t) (iblk1 V c 3 t) (iblk1 V c 1 t)) (eq_ix2 j)).trans ?_
  refine (pay_at _ _ _ _ _ (rowOf j) (colOf j)).trans ?_
  have hj0 : (j 0).val < 5000 := (j 0).isLt
  have hj1 : (j 1).val < 64 := (j 1).isLt
  have r0 : ∀ k : Fin 128, iblk1 V c 0 t (ix2 (rowOf j) k) = V c main_v25 (ix2 (rowOf (((cfg1.win 4).blk t).view.emb j)) k) := by
    intro k
    show V c main_v25 (((cfg1.win 0).blk t).view.emb (ix2 (rowOf j) k)) = _
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have r1 : iblk1 V c 1 t (ix2 (rowOf j) z1) = V c main_v14 (ix2 (rowOf (((cfg1.win 4).blk t).view.emb j)) z1) := by
    show V c main_v14 (((cfg1.win 1).blk t).view.emb (ix2 (rowOf j) z1)) = _
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  have r2 : ∀ k : Fin 128, iblk1 V c 2 t (ix2 z1 k) = V c main_v26 (ix2 z1 k) := by
    intro k
    show V c main_v26 (((cfg1.win 2).blk t).view.emb (ix2 z1 k)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  have r3 : ∀ k : Fin 128, iblk1 V c 3 t (ix2 k (colOf j)) = V c main_arg3 (ix2 k (colOf (((cfg1.win 4).blk t).view.emb j))) := by
    intro k
    show V c main_arg3 (((cfg1.win 3).blk t).view.emb (ix2 k (colOf j))) = _
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_4.index t (1 : Fin 2) * 64 + 1 * (j 1).val; omega
  rw [r1, Finset.sum_congr rfl (fun k _ => by rw [r0 k, r2 k, r3 k])]
  rfl

theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v27).slice (win1_4.rect t)).set ↔ _
  rw [View.set_slice_whole, Rect.mem_set_unit]
  exact Iff.rfl

theorem idx_onto : ∀ q : Fin 20, ∃ t : Fin cfg1.N, win1_4.index t = ![q.val, 0] :=
  (by decide +kernel : ∀ q : Fin 20, ∃ t : Fin grid1.N, win1_4.index t = ![q.val, 0])

theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE REGION'S OUTPUT ARRAY after its last write-back, as one function of the arrays it was entered with. -/
theorem final (c : Dev nD) : (dat1 V c).arrAt 4 cfg1.N = G V c :=
  (dat1 V c).arrAt_eq_of_cover 4 (G V c) (fun t _ => flushed_eq V c t) (cover)

end Cert.KernelIdeal.Region1

end
-- ==== Proof.Region2.lean ====
/-
  The third kernel region (scale, bias, clip) read as one function of whole arrays.
-/
import proofs.«163434_j85229331021973_2_alg».proof.Proof.Gen.KernelIdeal.Frame
import Idealize.ShloMosaic.Lib.Pipeline.Value
import Idealize.ShloMosaic.Lib.ValueIdx
import Idealize.ShloMosaic.PureOps.Ideal.Laws
import proofs.«163434_j85229331021973_2_alg».proof.Proof.Spec

set_option pp.maxSteps 5000
set_option pp.deepTerms false

noncomputable section

namespace Cert.KernelIdeal.Region2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

theorem hz : (![0, 0] : Fin 2 → Nat) = fun _ => 0 := funext fun a => by fin_cases a <;> rfl

/-- The body's stored value at an entry of the block. -/
theorem pay_at (x0 : Vec Ideal S5000x64 .f32) (x1 : Vec Ideal S5000x1 .f32) (x2 : Vec Ideal S1x64 .f32) (y : S5000x64.Idx) :
    k2_pay1 x0 x1 x2 y = max (x0 y * x1 (ix2 (rowOf y) z1) + x2 (ix2 z1 (colOf y))) 0 := by
  unfold k2_pay1
  rw [shapeCast_self, shapeCast_self, shapeCast_self]
  have e1 : broadcastTo S5000x64 x1 broadcasts_S5000x1_S5000x64 y = x1 (ix2 (rowOf y) z1) :=
    broadcastTo_apply x1 _ y _ (fun a => by match a with | ⟨0, _⟩ => rfl | ⟨1, _⟩ => rfl)
  have e2 : broadcastTo S5000x64 x2 broadcasts_S1x64_S5000x64 y = x2 (ix2 z1 (colOf y)) :=
    broadcastTo_apply x2 _ y _ (fun a => by match a with | ⟨0, _⟩ => rfl | ⟨1, _⟩ => rfl)
  show max (x0 y * broadcastTo S5000x64 x1 broadcasts_S5000x1_S5000x64 y + broadcastTo S5000x64 x2 broadcasts_S1x64_S5000x64 y)
    (Ideal.ofBits .f32 0#32) = _
  rw [e1, e2, Ideal.ofBits_zero_f32]

variable (V : (c : Dev nD) → (b : Ref sig .tc) → Buf (Elt Ideal) ((c : Thread nD τ).loc b))

/-- The whole-array function the region computes, of the arrays as the region finds them. -/
abbrev G (c : Dev nD) : S100000x64.Idx → EReal :=
  scaleBiasRelu (V c main_v37) (V c main_v14) (V c main_v38)

theorem idx_facts : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (0 : Fin 2) = t.val :=
  (by decide +kernel : ∀ t : Fin grid2.N, _)

theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  funext j
  obtain ⟨e00, e01, e31, e10, e11, e20, e21, e30⟩ := idx_facts t
  show k2_pay1 (iblk2 V c 0 t) (iblk2 V c 1 t) (iblk2 V c 2 t) j = G V c (((cfg2.win 3).blk t).view.emb j)
  refine (pay_at _ _ _ j).trans ?_
  have hj0 : (j 0).val < 5000 := (j 0).isLt
  have hj1 : (j 1).val < 64 := (j 1).isLt
  have r0 : iblk2 V c 0 t j = V c main_v37 (((cfg2.win 3).blk t).view.emb j) := by
    show V c main_v37 (((cfg2.win 0).blk t).view.emb j) = V c main_v37 (((cfg2.win 3).blk t).view.emb j)
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have r1 : iblk2 V c 1 t (ix2 (rowOf j) z1) = V c main_v14 (ix2 (rowOf (((cfg2.win 3).blk t).view.emb j)) z1) := by
    show V c main_v14 (((cfg2.win 1).blk t).view.emb (ix2 (rowOf j) z1)) = _
    refine congrArg _ (funext fun a => Fin.ext ?_)
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  have r2 : iblk2 V c 2 t (ix2 z1 (colOf j)) = V c main_v38 (ix2 z1 (colOf (((cfg2.win 3).blk t).view.emb j))) := by
    show V c main_v38 (((cfg2.win 2).blk t).view.emb (ix2 z1 (colOf j))) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  rw [r0, r1, r2]
  rfl

theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v39).slice (win2_3.rect t)).set ↔ _
  rw [View.set_slice_whole, Rect.mem_set_unit]
  exact Iff.rfl

theorem idx_onto : ∀ q : Fin 20, ∃ t : Fin cfg2.N, win2_3.index t = ![q.val, 0] :=
  (by decide +kernel : ∀ q : Fin 20, ∃ t : Fin grid2.N, win2_3.index t = ![q.val, 0])

theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE REGION'S OUTPUT ARRAY after its last write-back, as one function of the arrays it was entered with. -/
theorem final (c : Dev nD) : (dat2 V c).arrAt 3 cfg2.N = G V c :=
  (dat2 V c).arrAt_eq_of_cover 3 (G V c) (fun t _ => flushed_eq V c t) (cover)

end Cert.KernelIdeal.Region2

end
-- ==== Proof.KernelValue.lean ====
/-
  The idealized kernel's result as one function of the argument arrays.

  @main alternates three stretches of host operations with three kernel regions.  Folding them from the launch
  memory: the first stretch builds the edge list with self loops, counts in-degrees and forms each node's factor;
  region one is a dense layer with rows scaled by the factors; the second stretch gathers those rows along the edges'
  sources and adds them up at the edges' targets; region two scales the sums by the target's factor, adds the bias,
  clips at zero, applies the second dense layer and scales rows again; the third stretch aggregates again; region
  three scales, adds the bias and clips.  The graph quantities are the same host operations the reference applies, so
  they are named by the reference's stages and never opened here.
-/
import proofs.«163434_j85229331021973_2_alg».proof.Proof.Gen.KernelIdeal.Frame
import proofs.«163434_j85229331021973_2_alg».proof.Proof.RefShared
import proofs.«163434_j85229331021973_2_alg».proof.Proof.KernelSpec
import proofs.«163434_j85229331021973_2_alg».proof.Proof.Region0
import proofs.«163434_j85229331021973_2_alg».proof.Proof.Region1
import proofs.«163434_j85229331021973_2_alg».proof.Proof.Region2
import Idealize.ShloMosaic.Lib.StableHlo.Run

set_option pp.maxSteps 8000
set_option pp.deepTerms false
set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Gcn
open Idealize.ShloMosaic.Pipeline (Dat)

variable (m : (ℓ : Loc nD τ sig) → Buf (Elt Ideal) ℓ) (ρ : Dev nD → PrngReg) (c : Dev nD)

/-! ## After the first stretch -/

theorem w1_v3 : W1 m ρ c (Proc.devRef .tc main_v3)
    = Cert.ReferenceIdeal.Read.val_main_v3 (F := Ideal) (m ((c : Thread nD τ).loc main_arg5)) := by
  show StableHlo.after hostOps0 (W0 m ρ c) (Proc.devRef .tc main_v3) = _
  after_results
  rfl

theorem w1_v6 : W1 m ρ c (Proc.devRef .tc main_v6)
    = Cert.ReferenceIdeal.Read.val_main_v6 (F := Ideal) (m ((c : Thread nD τ).loc main_arg5)) := by
  show StableHlo.after hostOps0 (W0 m ρ c) (Proc.devRef .tc main_v6) = _
  after_results
  rfl

theorem w1_v14 : W1 m ρ c (Proc.devRef .tc main_v14) = dcol (m ((c : Thread nD τ).loc main_arg5)) := by
  show StableHlo.after hostOps0 (W0 m ρ c) (Proc.devRef .tc main_v14) = _
  after_results
  rfl

theorem w1_arg0 : W1 m ρ c (Proc.devRef .tc main_arg0) = m ((c : Thread nD τ).loc main_arg0) := by
  show StableHlo.after hostOps0 (W0 m ρ c) (Proc.devRef .tc main_arg0) = _
  after_results

theorem w1_arg1 : W1 m ρ c (Proc.devRef .tc main_arg1) = m ((c : Thread nD τ).loc main_arg1) := by
  show StableHlo.after hostOps0 (W0 m ρ c) (Proc.devRef .tc main_arg1) = _
  after_results

theorem w1_arg2 : W1 m ρ c (Proc.devRef .tc main_arg2) = m ((c : Thread nD τ).loc main_arg2) := by
  show StableHlo.after hostOps0 (W0 m ρ c) (Proc.devRef .tc main_arg2) = _
  after_results

theorem w1_arg3 : W1 m ρ c (Proc.devRef .tc main_arg3) = m ((c : Thread nD τ).loc main_arg3) := by
  show StableHlo.after hostOps0 (W0 m ρ c) (Proc.devRef .tc main_arg3) = _
  after_results

theorem w1_arg4 : W1 m ρ c (Proc.devRef .tc main_arg4) = m ((c : Thread nD τ).loc main_arg4) := by
  show StableHlo.after hostOps0 (W0 m ρ c) (Proc.devRef .tc main_arg4) = _
  after_results

/-! ## After the first region -/

theorem w2_v15 : W2 m ρ c (Proc.devRef .tc main_v15)
    = denseScaled (m ((c : Thread nD τ).loc main_arg0)) (m ((c : Thread nD τ).loc main_arg1)) (dcol (m ((c : Thread nD τ).loc main_arg5))) := by
  refine (W2_arr m ρ c 3).trans ?_
  refine (Region0.final (V1 m ρ) c).trans ?_
  have h0 : V1 m ρ c main_arg0 = m ((c : Thread nD τ).loc main_arg0) := w1_arg0 m ρ c
  have h1 : V1 m ρ c main_arg1 = m ((c : Thread nD τ).loc main_arg1) := w1_arg1 m ρ c
  have h14 : V1 m ρ c main_v14 = dcol (m ((c : Thread nD τ).loc main_arg5)) := w1_v14 m ρ c
  show denseScaled (V1 m ρ c main_arg0) (V1 m ρ c main_arg1) (V1 m ρ c main_v14) = _
  rw [h0, h1, h14]

theorem w2_v3 : W2 m ρ c (Proc.devRef .tc main_v3)
    = Cert.ReferenceIdeal.Read.val_main_v3 (F := Ideal) (m ((c : Thread nD τ).loc main_arg5)) :=
  (W2_of_ne m ρ c main_v3 (by decide)).trans (w1_v3 m ρ c)

theorem w2_v6 : W2 m ρ c (Proc.devRef .tc main_v6)
    = Cert.ReferenceIdeal.Read.val_main_v6 (F := Ideal) (m ((c : Thread nD τ).loc main_arg5)) :=
  (W2_of_ne m ρ c main_v6 (by decide)).trans (w1_v6 m ρ c)

theorem w2_v14 : W2 m ρ c (Proc.devRef .tc main_v14) = dcol (m ((c : Thread nD τ).loc main_arg5)) :=
  (W2_arr m ρ c 2).trans (((dat0 (V1 m ρ) c).arrAt_in 2 rfl _).trans ((A_eq0 (V1 m ρ) c 2).trans (w1_v14 m ρ c)))

theorem w2_arg2 : W2 m ρ c (Proc.devRef .tc main_arg2) = m ((c : Thread nD τ).loc main_arg2) :=
  (W2_of_ne m ρ c main_arg2 (by decide)).trans (w1_arg2 m ρ c)

theorem w2_arg3 : W2 m ρ c (Proc.devRef .tc main_arg3) = m ((c : Thread nD τ).loc main_arg3) :=
  (W2_of_ne m ρ c main_arg3 (by decide)).trans (w1_arg3 m ρ c)

theorem w2_arg4 : W2 m ρ c (Proc.devRef .tc main_arg4) = m ((c : Thread nD τ).loc main_arg4) :=
  (W2_of_ne m ρ c main_arg4 (by decide)).trans (w1_arg4 m ρ c)

end Cert.KernelIdeal.KValue

end
-- ==== Proof.KernelValueB.lean ====
/-
  The fold continued: after the second stretch of host operations and after the second region.
-/
import proofs.«163434_j85229331021973_2_alg».proof.Proof.KernelValue

set_option pp.maxSteps 8000
set_option pp.deepTerms false
set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Gcn
open Idealize.ShloMosaic.Pipeline (Dat)

variable (m : (ℓ : Loc nD τ sig) → Buf (Elt Ideal) ℓ) (ρ : Dev nD → PrngReg) (c : Dev nD)

/-! ## After the second stretch -/

theorem w3_v25 : W3 m ρ c (Proc.devRef .tc main_v25)
    = agg128 (denseScaled (m ((c : Thread nD τ).loc main_arg0)) (m ((c : Thread nD τ).loc main_arg1)) (dcol (m ((c : Thread nD τ).loc main_arg5)))) (m ((c : Thread nD τ).loc main_arg5)) := by
  show StableHlo.after hostOps1 (W2 m ρ c) (Proc.devRef .tc main_v25) = _
  after_results
  rw [w2_v3, w2_v6, w2_v15]
  rfl

theorem w3_v26 : W3 m ρ c (Proc.devRef .tc main_v26) = b1row (m ((c : Thread nD τ).loc main_arg2)) := by
  show StableHlo.after hostOps1 (W2 m ρ c) (Proc.devRef .tc main_v26) = _
  after_results
  rw [w2_arg2]
  rfl

theorem w3_v14 : W3 m ρ c (Proc.devRef .tc main_v14) = dcol (m ((c : Thread nD τ).loc main_arg5)) := by
  show StableHlo.after hostOps1 (W2 m ρ c) (Proc.devRef .tc main_v14) = _
  after_results
  exact w2_v14 m ρ c

theorem w3_arg3 : W3 m ρ c (Proc.devRef .tc main_arg3) = (m ((c : Thread nD τ).loc main_arg3)) := by
  show StableHlo.after hostOps1 (W2 m ρ c) (Proc.devRef .tc main_arg3) = _
  after_results
  exact w2_arg3 m ρ c

theorem w3_arg4 : W3 m ρ c (Proc.devRef .tc main_arg4) = (m ((c : Thread nD τ).loc main_arg4)) := by
  show StableHlo.after hostOps1 (W2 m ρ c) (Proc.devRef .tc main_arg4) = _
  after_results
  exact w2_arg4 m ρ c

theorem w3_v3 : W3 m ρ c (Proc.devRef .tc main_v3)
    = Cert.ReferenceIdeal.Read.val_main_v3 (F := Ideal) (m ((c : Thread nD τ).loc main_arg5)) := by
  show StableHlo.after hostOps1 (W2 m ρ c) (Proc.devRef .tc main_v3) = _
  after_results
  exact w2_v3 m ρ c

theorem w3_v6 : W3 m ρ c (Proc.devRef .tc main_v6)
    = Cert.ReferenceIdeal.Read.val_main_v6 (F := Ideal) (m ((c : Thread nD τ).loc main_arg5)) := by
  show StableHlo.after hostOps1 (W2 m ρ c) (Proc.devRef .tc main_v6) = _
  after_results
  exact w2_v6 m ρ c

/-! ## After the second region -/

theorem w4_v27 : W4 m ρ c (Proc.devRef .tc main_v27)
    = denseScaled (h1K (m ((c : Thread nD τ).loc main_arg0)) (m ((c : Thread nD τ).loc main_arg1)) (m ((c : Thread nD τ).loc main_arg2)) (m ((c : Thread nD τ).loc main_arg5))) (m ((c : Thread nD τ).loc main_arg3)) (dcol (m ((c : Thread nD τ).loc main_arg5))) := by
  refine (W4_arr m ρ c 4).trans ?_
  refine (Region1.final (V3 m ρ) c).trans ?_
  have h25 : V3 m ρ c main_v25 = agg128 (denseScaled (m ((c : Thread nD τ).loc main_arg0)) (m ((c : Thread nD τ).loc main_arg1)) (dcol (m ((c : Thread nD τ).loc main_arg5)))) (m ((c : Thread nD τ).loc main_arg5)) := w3_v25 m ρ c
  have h14 : V3 m ρ c main_v14 = dcol (m ((c : Thread nD τ).loc main_arg5)) := w3_v14 m ρ c
  have h26 : V3 m ρ c main_v26 = b1row (m ((c : Thread nD τ).loc main_arg2)) := w3_v26 m ρ c
  have h3 : V3 m ρ c main_arg3 = (m ((c : Thread nD τ).loc main_arg3)) := w3_arg3 m ρ c
  show denseScaled (scaleBiasRelu (V3 m ρ c main_v25) (V3 m ρ c main_v14) (V3 m ρ c main_v26)) (V3 m ρ c main_arg3) (V3 m ρ c main_v14) = _
  rw [h25, h14, h26, h3]
  rfl

theorem w4_v3 : W4 m ρ c (Proc.devRef .tc main_v3)
    = Cert.ReferenceIdeal.Read.val_main_v3 (F := Ideal) (m ((c : Thread nD τ).loc main_arg5)) :=
  (W4_of_ne m ρ c main_v3 (by decide)).trans (w3_v3 m ρ c)

theorem w4_v6 : W4 m ρ c (Proc.devRef .tc main_v6)
    = Cert.ReferenceIdeal.Read.val_main_v6 (F := Ideal) (m ((c : Thread nD τ).loc main_arg5)) :=
  (W4_of_ne m ρ c main_v6 (by decide)).trans (w3_v6 m ρ c)

theorem w4_arg4 : W4 m ρ c (Proc.devRef .tc main_arg4) = (m ((c : Thread nD τ).loc main_arg4)) :=
  (W4_of_ne m ρ c main_arg4 (by decide)).trans (w3_arg4 m ρ c)

theorem w4_v14 : W4 m ρ c (Proc.devRef .tc main_v14) = dcol (m ((c : Thread nD τ).loc main_arg5)) :=
  (W4_arr m ρ c 1).trans (((dat1 (V3 m ρ) c).arrAt_in 1 rfl _).trans ((A_eq1 (V3 m ρ) c 1).trans (w3_v14 m ρ c)))

end Cert.KernelIdeal.KValue

end
-- ==== Proof.KernelValueC.lean ====
/-
  The fold's end: after the third stretch of host operations and after the third region, the result buffer holds the kernel's function of the argument arrays.
-/
import proofs.«163434_j85229331021973_2_alg».proof.Proof.KernelValueB

set_option pp.maxSteps 8000
set_option pp.deepTerms false
set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Gcn
open Idealize.ShloMosaic.Pipeline (Dat)

variable (m : (ℓ : Loc nD τ sig) → Buf (Elt Ideal) ℓ) (ρ : Dev nD → PrngReg) (c : Dev nD)

/-! ## After the third stretch -/

theorem w5_v37 : W5 m ρ c (Proc.devRef .tc main_v37)
    = agg64 (denseScaled (h1K (m ((c : Thread nD τ).loc main_arg0)) (m ((c : Thread nD τ).loc main_arg1)) (m ((c : Thread nD τ).loc main_arg2)) (m ((c : Thread nD τ).loc main_arg5))) (m ((c : Thread nD τ).loc main_arg3)) (dcol (m ((c : Thread nD τ).loc main_arg5)))) (m ((c : Thread nD τ).loc main_arg5)) := by
  show StableHlo.after hostOps2 (W4 m ρ c) (Proc.devRef .tc main_v37) = _
  after_results
  rw [w4_v3, w4_v6, w4_v27]
  rfl

theorem w5_v38 : W5 m ρ c (Proc.devRef .tc main_v38) = b2row (m ((c : Thread nD τ).loc main_arg4)) := by
  show StableHlo.after hostOps2 (W4 m ρ c) (Proc.devRef .tc main_v38) = _
  after_results
  rw [w4_arg4]
  rfl

theorem w5_v14 : W5 m ρ c (Proc.devRef .tc main_v14) = dcol (m ((c : Thread nD τ).loc main_arg5)) := by
  show StableHlo.after hostOps2 (W4 m ρ c) (Proc.devRef .tc main_v14) = _
  after_results
  exact w4_v14 m ρ c

/-! ## After the third region: the result -/

/-- THE RESULT BUFFER at the last segment boundary is the kernel's function of the argument arrays. -/
theorem w6_v39 : W6 m ρ c (Proc.devRef .tc main_v39)
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ?_
  refine (Region2.final (V5 m ρ) c).trans ?_
  have h37 : V5 m ρ c main_v37 = agg64 (denseScaled (h1K (m ((c : Thread nD τ).loc main_arg0)) (m ((c : Thread nD τ).loc main_arg1)) (m ((c : Thread nD τ).loc main_arg2)) (m ((c : Thread nD τ).loc main_arg5))) (m ((c : Thread nD τ).loc main_arg3)) (dcol (m ((c : Thread nD τ).loc main_arg5)))) (m ((c : Thread nD τ).loc main_arg5)) := w5_v37 m ρ c
  have h14 : V5 m ρ c main_v14 = dcol (m ((c : Thread nD τ).loc main_arg5)) := w5_v14 m ρ c
  have h38 : V5 m ρ c main_v38 = b2row (m ((c : Thread nD τ).loc main_arg4)) := w5_v38 m ρ c
  show scaleBiasRelu (V5 m ρ c main_v37) (V5 m ρ c main_v14) (V5 m ρ c main_v38) = _
  rw [h37, h14, h38]
  rfl

end Cert.KernelIdeal.KValue

end
-- ==== Proof.LibSegmentSum.lean ====
/-
  The host's accumulating scatter of rows — jax's `segment_sum` of a table of rows — read at an entry.

  Updates `upd : [E, H]` are added into an operand `x : [V, H]`, row `e` of the updates onto the row of
  the operand that `idx[e, 0]` names (read signed; a row outside the operand is dropped).  Over the
  extended reals the accumulation is the exact sum, so entry `(v, k)` of the result is `x (v, k)` plus
  the sum of `upd (e, k)` over the update rows `e` whose index is `v`.
-/
import Idealize.ShloMosaic.PureOps.Ideal
import Idealize.ShloMosaic.Lib.ValueIdx

open Idealize.ShloMosaic Idealize.ShloMosaic.ValueIdx

namespace Cert.Proof.LibSegmentSum

/-- The dimension numbers of a row scatter: the update's second axis is the window, the operand's first
    axis is the one the single index component names. -/
abbrev rowDims (V E H : Nat) (wf : ScatterDims.WF ⟨2, ![V, H]⟩ ⟨2, ![E, 1]⟩ ⟨2, ![E, H]⟩ [1] [0] [0] 1) :
    ScatterDims ⟨2, ![V, H]⟩ ⟨2, ![E, 1]⟩ ⟨2, ![E, H]⟩ where
  updateWindowDims := [1]
  insertedWindowDims := [0]
  scatterDimsToOperandDims := [0]
  indexVectorDim := 1
  wf := wf

/-- Where update row `e` reads its index. -/
abbrev segIdx {E : Nat} (e : Fin E) : (⟨2, ![E, 1]⟩ : Shape).Idx := ix2 e ⟨0, Nat.one_pos⟩

variable {V E H w : Nat} (wf : ScatterDims.WF ⟨2, ![V, H]⟩ ⟨2, ![E, 1]⟩ ⟨2, ![E, H]⟩ [1] [0] [0] 1)

theorem start_row (j : (⟨2, ![E, H]⟩ : Shape).Idx) (idx : IVec ⟨2, ![E, 1]⟩ w) :
    (rowDims V E H wf).start j idx 0 = (idx (segIdx (j 0))).toInt := by
  unfold ScatterDims.start
  rw [dif_pos (show (0 : Fin 2) ∈ (rowDims V E H wf).scatterDimsToOperandDims from List.mem_singleton.mpr rfl)]
  have hsi : (rowDims V E H wf).siIdx j ⟨List.idxOf (0 : Fin 2) (rowDims V E H wf).scatterDimsToOperandDims,
      List.idxOf_lt_length_iff.2 (List.mem_singleton.mpr rfl)⟩ = segIdx (j 0) := by
    funext b; refine Fin.ext ?_
    match b with
    | ⟨0, _⟩ => rfl
    | ⟨1, _⟩ => rfl
  rw [hsi]
  rfl

/-- The operand's axes that carry a window coordinate: only the second. -/
theorem sKept_eq : (rowDims V E H wf).sKept = [1] := by
  show (List.finRange 2).filter (fun a : Fin 2 => a ∉ ([0] : List (Fin 2))) = [1]
  decide

theorem start_col (j : (⟨2, ![E, H]⟩ : Shape).Idx) (idx : IVec ⟨2, ![E, 1]⟩ w) :
    (rowDims V E H wf).start j idx 1 = 0 := by
  unfold ScatterDims.start
  rw [dif_neg (show ¬ (1 : Fin 2) ∈ ([0] : List (Fin 2)) by decide)]

theorem window_row (j : (⟨2, ![E, H]⟩ : Shape).Idx) : (rowDims V E H wf).window j 0 = 0 := by
  unfold ScatterDims.window
  rw [dif_neg (show ¬ (0 : Fin 2) ∈ (rowDims V E H wf).sKept by
    rw [sKept_eq]; exact (show ¬ (0 : Fin 2) ∈ ([1] : List (Fin 2)) by decide))]

theorem window_col (j : (⟨2, ![E, H]⟩ : Shape).Idx) : (rowDims V E H wf).window j 1 = (j 1).val := by
  unfold ScatterDims.window
  rw [dif_pos (show (1 : Fin 2) ∈ (rowDims V E H wf).sKept by
    rw [sKept_eq]; exact (show (1 : Fin 2) ∈ ([1] : List (Fin 2)) by decide))]
  rfl

/-- The update entry `j` stays inside the operand exactly when its row's index, read signed, names a row. -/
theorem inside_iff (j : (⟨2, ![E, H]⟩ : Shape).Idx) (idx : IVec ⟨2, ![E, 1]⟩ w) :
    (∀ a, 0 ≤ (rowDims V E H wf).start j idx a + (rowDims V E H wf).window j a ∧
        (rowDims V E H wf).start j idx a + (rowDims V E H wf).window j a < (⟨2, ![V, H]⟩ : Shape).size a)
      ↔ (0 ≤ (idx (segIdx (j 0))).toInt ∧ (idx (segIdx (j 0))).toInt < V) := by
  rw [Fin.forall_fin_two, start_row, start_col, window_row, window_col]
  have := idx2_lt1 j
  show (0 ≤ _ + ((0 : ℕ) : ℤ) ∧ _ + ((0 : ℕ) : ℤ) < ((V : ℕ) : ℤ))
    ∧ (0 ≤ (0 : ℤ) + (((j 1).val : ℕ) : ℤ) ∧ (0 : ℤ) + (((j 1).val : ℕ) : ℤ) < ((H : ℕ) : ℤ)) ↔ _
  omega

/-- The update entry `j` lands on the operand entry `i` exactly when its row's index is `i`'s row and
    the two share the column. -/
theorem resultIdx?_eq_some_iff (j : (⟨2, ![E, H]⟩ : Shape).Idx) (idx : IVec ⟨2, ![E, 1]⟩ w)
    (i : (⟨2, ![V, H]⟩ : Shape).Idx) :
    (rowDims V E H wf).resultIdx? j idx = some i
      ↔ (idx (segIdx (j 0))).toInt = ((i 0).val : ℤ) ∧ (j 1).val = (i 1).val := by
  unfold ScatterDims.resultIdx?
  have hi0 := idx2_lt0 i
  by_cases hc : ∀ a, 0 ≤ (rowDims V E H wf).start j idx a + (rowDims V E H wf).window j a ∧
      (rowDims V E H wf).start j idx a + (rowDims V E H wf).window j a < (⟨2, ![V, H]⟩ : Shape).size a
  · rw [dif_pos hc]
    have hc' := (inside_iff wf j idx).mp hc
    constructor
    · intro h
      have hi := Option.some.inj h
      have h0 : ((rowDims V E H wf).start j idx 0 + (rowDims V E H wf).window j 0).toNat = (i 0).val :=
        congrArg (fun f => (f 0).val) hi
      have h1 : ((rowDims V E H wf).start j idx 1 + (rowDims V E H wf).window j 1).toNat = (i 1).val :=
        congrArg (fun f => (f 1).val) hi
      rw [start_row, window_row] at h0
      rw [start_col, window_col] at h1
      constructor <;> omega
    · rintro ⟨h0, h1⟩
      congr 1
      funext a
      refine Fin.ext ?_
      revert a
      rw [Fin.forall_fin_two]
      constructor
      · show ((rowDims V E H wf).start j idx 0 + (rowDims V E H wf).window j 0).toNat = (i 0).val
        rw [start_row, window_row]; omega
      · show ((rowDims V E H wf).start j idx 1 + (rowDims V E H wf).window j 1).toNat = (i 1).val
        rw [start_col, window_col]; omega
  · rw [dif_neg hc]
    constructor
    · intro h; exact absurd h (by simp)
    · rintro ⟨h0, _⟩
      exact absurd ((inside_iff wf j idx).mpr ⟨by omega, by omega⟩) hc

/-- An operand entry's column, as a column of the updates. -/
abbrev colOf (i : (⟨2, ![V, H]⟩ : Shape).Idx) : Fin H := ⟨(i 1).val, idx2_lt1 i⟩

/-- THE ROW SCATTER-ADD READ AT AN ENTRY: the operand's entry plus the entries, in the same column, of
    the update rows whose index names the entry's row. -/
theorem scatterAdd_rows_apply (x : (⟨2, ![V, H]⟩ : Shape).Idx → EReal) (idx : IVec ⟨2, ![E, 1]⟩ w)
    (upd : (⟨2, ![E, H]⟩ : Shape).Idx → EReal) (i : (⟨2, ![V, H]⟩ : Shape).Idx) :
    Ideal.hostScatterAdd (rowDims V E H wf) x idx upd i
      = x i + ∑ e : Fin E, if (idx (segIdx e)).toInt = ((i 0).val : ℤ) then upd (ix2 e (colOf i)) else 0 := by
  unfold Ideal.hostScatterAdd
  congr 1
  rw [Finset.sum_filter, sum_idx2]
  refine Finset.sum_congr rfl fun e _ => ?_
  by_cases hA : (idx (segIdx e)).toInt = ((i 0).val : ℤ)
  · rw [if_pos hA]
    refine (Finset.sum_eq_single (colOf i) ?_ ?_).trans ?_
    · intro k _ hk
      exact if_neg fun h => hk (Fin.ext ((resultIdx?_eq_some_iff wf (ix2 e k) idx i).mp h).2)
    · intro h; exact absurd (Finset.mem_univ _) h
    · exact if_pos ((resultIdx?_eq_some_iff wf (ix2 e (colOf i)) idx i).mpr ⟨hA, rfl⟩)
  · rw [if_neg hA]
    exact Finset.sum_eq_zero fun k _ => if_neg fun h => hA ((resultIdx?_eq_some_iff wf (ix2 e k) idx i).mp h).1

/-! ## The same for a table of scalars (`segment_sum` of a vector: a count when the updates are ones) -/

section Scalars

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scalar scatter: no window axis, the operand's one axis named by the index. -/
abbrev scalarDims (V E : Nat) (wf : ScatterDims.WF ⟨1, ![V]⟩ ⟨2, ![E, 1]⟩ ⟨1, ![E]⟩ [] [0] [0] 1) :
    ScatterDims ⟨1, ![V]⟩ ⟨2, ![E, 1]⟩ ⟨1, ![E]⟩ where
  updateWindowDims := []
  insertedWindowDims := [0]
  scatterDimsToOperandDims := [0]
  indexVectorDim := 1
  wf := wf

variable {V E w : Nat} (wf : ScatterDims.WF ⟨1, ![V]⟩ ⟨2, ![E, 1]⟩ ⟨1, ![E]⟩ [] [0] [0] 1)

theorem start_scalar (j : (⟨1, ![E]⟩ : Shape).Idx) (idx : IVec ⟨2, ![E, 1]⟩ w) :
    (scalarDims V E wf).start j idx 0 = (idx (segIdx (j 0))).toInt := by
  unfold ScatterDims.start
  rw [dif_pos (show (0 : Fin 1) ∈ (scalarDims V E wf).scatterDimsToOperandDims from List.mem_singleton.mpr rfl)]
  have hsi : (scalarDims V E wf).siIdx j ⟨List.idxOf (0 : Fin 1) (scalarDims V E wf).scatterDimsToOperandDims,
      List.idxOf_lt_length_iff.2 (List.mem_singleton.mpr rfl)⟩ = segIdx (j 0) := by
    funext b; refine Fin.ext ?_
    match b with
    | ⟨0, _⟩ => rfl
    | ⟨1, _⟩ => rfl
  rw [hsi]
  rfl

theorem sKept_scalar : (scalarDims V E wf).sKept = [] := by
  show (List.finRange 1).filter (fun a : Fin 1 => a ∉ ([0] : List (Fin 1))) = []
  decide

theorem window_scalar (j : (⟨1, ![E]⟩ : Shape).Idx) : (scalarDims V E wf).window j 0 = 0 := by
  unfold ScatterDims.window
  rw [dif_neg (show ¬ (0 : Fin 1) ∈ (scalarDims V E wf).sKept by rw [sKept_scalar]; exact List.not_mem_nil)]

theorem resultIdx?_scalar_iff (j : (⟨1, ![E]⟩ : Shape).Idx) (idx : IVec ⟨2, ![E, 1]⟩ w) (i : (⟨1, ![V]⟩ : Shape).Idx) :
    (scalarDims V E wf).resultIdx? j idx = some i ↔ (idx (segIdx (j 0))).toInt = ((i 0).val : ℤ) := by
  unfold ScatterDims.resultIdx?
  have hi0 : (i 0).val < V := (i 0).isLt
  have hin : (∀ a, 0 ≤ (scalarDims V E wf).start j idx a + (scalarDims V E wf).window j a ∧
        (scalarDims V E wf).start j idx a + (scalarDims V E wf).window j a < (⟨1, ![V]⟩ : Shape).size a)
      ↔ (0 ≤ (idx (segIdx (j 0))).toInt ∧ (idx (segIdx (j 0))).toInt < V) := by
    rw [Fin.forall_fin_one, start_scalar, window_scalar]
    show (0 ≤ _ + ((0 : ℕ) : ℤ) ∧ _ + ((0 : ℕ) : ℤ) < ((V : ℕ) : ℤ)) ↔ _
    omega
  by_cases hc : ∀ a, 0 ≤ (scalarDims V E wf).start j idx a + (scalarDims V E wf).window j a ∧
      (scalarDims V E wf).start j idx a + (scalarDims V E wf).window j a < (⟨1, ![V]⟩ : Shape).size a
  · rw [dif_pos hc]
    have hc' := hin.mp hc
    constructor
    · intro h
      have h0 : ((scalarDims V E wf).start j idx 0 + (scalarDims V E wf).window j 0).toNat = (i 0).val :=
        congrArg (fun f => (f 0).val) (Option.some.inj h)
      rw [start_scalar, window_scalar] at h0
      omega
    · intro h0
      congr 1
      funext a
      refine Fin.ext ?_
      revert a
      rw [Fin.forall_fin_one]
      show ((scalarDims V E wf).start j idx 0 + (scalarDims V E wf).window j 0).toNat = (i 0).val
      rw [start_scalar, window_scalar]; omega
  · rw [dif_neg hc]
    constructor
    · intro h; exact absurd h (by simp)
    · intro h0
      exact absurd (hin.mpr ⟨by omega, by omega⟩) hc

/-- THE SCALAR SCATTER-ADD READ AT AN ENTRY: the operand's entry plus the updates whose index names it. -/
theorem scatterAdd_scalars_apply (x : (⟨1, ![V]⟩ : Shape).Idx → EReal) (idx : IVec ⟨2, ![E, 1]⟩ w)
    (upd : (⟨1, ![E]⟩ : Shape).Idx → EReal) (i : (⟨1, ![V]⟩ : Shape).Idx) :
    Ideal.hostScatterAdd (scalarDims V E wf) x idx upd i
      = x i + ∑ e : Fin E, if (idx (segIdx e)).toInt = ((i 0).val : ℤ) then upd (ix1 e) else 0 := by
  unfold Ideal.hostScatterAdd
  congr 1
  rw [Finset.sum_filter, sum_idx1]
  refine Finset.sum_congr rfl fun e _ => ?_
  by_cases hA : (idx (segIdx e)).toInt = ((i 0).val : ℤ)
  · rw [if_pos hA]; exact if_pos ((resultIdx?_scalar_iff wf (ix1 e) idx i).mpr hA)
  · rw [if_neg hA]; exact if_neg fun h => hA ((resultIdx?_scalar_iff wf (ix1 e) idx i).mp h)

end Scalars

end Cert.Proof.LibSegmentSum
-- ==== Proof.LibGatherRows.lean ====
/-
  A host gather of whole rows — `x[idx]` for a table `x : [N, H]` and integer indices — read at an entry.

  The indices arrive as `[E, 1]`; result row `e` is the table's row named by `idx[e, 0]`, read as a signed
  integer and clamped into `[0, N - 1]` as every gather start index is; the column is kept.
-/
import Idealize.ShloMosaic.PureOps.ShapeOps
import Idealize.ShloMosaic.Lib.ValueIdx

open Idealize.ShloMosaic Idealize.ShloMosaic.ValueIdx

namespace Cert.Proof.LibGatherRows

variable {α : Type}

/-- The dimension numbers of a row gather: the result's second axis is the row's offset axis, the
    table's first axis is collapsed and is the one the single index component names. -/
abbrev rowDims (N E H : Nat) (wf : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ where
  offsetDims := [1]
  collapsedSliceDims := [0]
  operandBatchingDims := []
  startIndicesBatchingDims := []
  startIndexMap := [0]
  indexVectorDim := 1
  sliceSizes := ![1, H]
  wf := wf

/-- Where result row `e` reads its index. -/
abbrev rowIdx {E : Nat} (e : Fin E) : (⟨2, ![E, 1]⟩ : Shape).Idx := ix2 e ⟨0, Nat.one_pos⟩

/-- THE ROW GATHER READ AT `(e, k)`: the table at the clamped index of row `e`, column `k`. -/
theorem gather_rows_apply {N E H w : Nat} (hN : 0 < N)
    (wf : GatherDims.WF ⟨2, ![N, H]⟩ ⟨2, ![E, 1]⟩ ⟨2, ![E, H]⟩ [1] [0] [] [0] [] 1 ![1, H])
    (x : (⟨2, ![N, H]⟩ : Shape).Idx → α) (idx : IVec ⟨2, ![E, 1]⟩ w) (y : (⟨2, ![E, H]⟩ : Shape).Idx) :
    Host.gather (rowDims N E H wf) x idx y
      = x (ix2 ⟨min (idx (rowIdx ⟨(y 0).val, idx2_lt0 y⟩)).toInt.toNat (N - 1), by omega⟩ ⟨(y 1).val, idx2_lt1 y⟩) := by
  unfold Host.gather
  congr 1
  funext a
  refine Fin.ext ?_
  revert a
  rw [Fin.forall_fin_two]
  constructor
  · show (rowDims N E H wf).start y idx 0 + (rowDims N E H wf).batchCoord y 0 + (rowDims N E H wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E H wf).startIndexMap from List.mem_singleton.mpr rfl)]
    have hsi : (rowDims N E H wf).siIdx y ⟨List.idxOf (0 : Fin 2) (rowDims N E H wf).startIndexMap,
        List.idxOf_lt_length_iff.2 (List.mem_singleton.mpr rfl)⟩ = rowIdx ⟨(y 0).val, idx2_lt0 y⟩ := by
      funext b; refine Fin.ext ?_
      match b with
      | ⟨0, _⟩ => rfl
      | ⟨1, _⟩ => rfl
    rw [hsi]
    rfl
  · show (rowDims N E H wf).start y idx 1 + (rowDims N E H wf).batchCoord y 1 + (rowDims N E H wf).offCoord y 1 = _
    rw [GatherDims.batchCoord_eq_zero _ _ _ List.not_mem_nil]
    have hs : (rowDims N E H wf).start y idx 1 = 0 := by
      unfold GatherDims.start
      rw [dif_neg (show ¬ (1 : Fin 2) ∈ ([0] : List (Fin 2)) by decide)]
    rw [hs]
    simp only [Nat.zero_add, Nat.add_zero]
    unfold GatherDims.offCoord
    rw [dif_pos ((GatherDims.mem_sKept _ _).mpr
      ⟨(show ¬ (1 : Fin 2) ∈ ([0] : List (Fin 2)) by decide), List.not_mem_nil⟩)]
    rfl

end Cert.Proof.LibGatherRows
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«163434_j85229331021973_2_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.RefValue.lean ====
/-
  The reference read at an entry, one layer at a time.
-/
import proofs.«163434_j85229331021973_2_alg».proof.Proof.RefShared
import proofs.«163434_j85229331021973_2_alg».proof.Proof.LibSegmentSum
import proofs.«163434_j85229331021973_2_alg».proof.Proof.LibGatherRows
import proofs.«163434_j85229331021973_2_alg».proof.Proof.LibDotGeneralEntry
import Idealize.ShloMosaic.PureOps.Ideal.Laws

noncomputable section

open scoped BigOperators

namespace Cert.Gcn.Ref

open Cert.ReferenceIdeal Cert.ReferenceIdeal.Read Idealize.ShloMosaic Idealize.ShloMosaic.ValueIdx

/-! ## The three index-driven reads, at indices given by their coordinates -/

/-- The dimension numbers of a gather of scalars: a table `[N]` read at `[E, 1]` start indices into `[E]`. -/
private abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of scalars read at `e`: the table at the start index `idx[e, 0]`, read signed and clamped into
    `[0, N - 1]`. -/
private theorem gather_vec_at {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) (r : Fin N)
    (hr : r.val = min (idx (ix2 e ⟨0, Nat.one_pos⟩)).toInt.toNat (N - 1)) :
    Host.gather (vecDims N E wf) x idx (ix1 e) = x (ix1 r) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = r.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi, hr]
  rfl

/-- The gather of rows read at `(e, f)`. -/
private theorem gather_rows_at {α : Type} {N E H w : Nat} (hN : 0 < N)
    (wf : GatherDims.WF ⟨2, ![N, H]⟩ ⟨2, ![E, 1]⟩ ⟨2, ![E, H]⟩ [1] [0] [] [0] [] 1 ![1, H])
    (x : (⟨2, ![N, H]⟩ : Shape).Idx → α) (idx : IVec ⟨2, ![E, 1]⟩ w) (e : Fin E) (f : Fin H) (r : Fin N)
    (hr : r.val = min (idx (ix2 e ⟨0, Nat.one_pos⟩)).toInt.toNat (N - 1)) :
    Host.gather (Cert.Proof.LibGatherRows.rowDims N E H wf) x idx (ix2 e f) = x (ix2 r f) := by
  refine (Cert.Proof.LibGatherRows.gather_rows_apply hN wf x idx (ix2 e f)).trans ?_
  congr 1
  funext a
  refine Fin.ext ?_
  match a with
  | ⟨0, _⟩ => exact hr.symm
  | ⟨1, _⟩ => rfl

/-- The accumulating scatter of rows read at `(n, f)`. -/
private theorem scatter_rows_at {V E H w : Nat}
    (wf : ScatterDims.WF ⟨2, ![V, H]⟩ ⟨2, ![E, 1]⟩ ⟨2, ![E, H]⟩ [1] [0] [0] 1)
    (x : (⟨2, ![V, H]⟩ : Shape).Idx → EReal) (idx : IVec ⟨2, ![E, 1]⟩ w)
    (upd : (⟨2, ![E, H]⟩ : Shape).Idx → EReal) (n : Fin V) (f : Fin H) :
    Ideal.hostScatterAdd (Cert.Proof.LibSegmentSum.rowDims V E H wf) x idx upd (ix2 n f)
      = x (ix2 n f) + ∑ e : Fin E, if (idx (ix2 e ⟨0, Nat.one_pos⟩)).toInt = ((n.val : ℕ) : ℤ) then upd (ix2 e f) else 0 :=
  Cert.Proof.LibSegmentSum.scatterAdd_rows_apply wf x idx upd (ix2 n f)

/-- The zero word of `f32` reads zero. -/
private theorem zero_f32 : FloatOps.ofBits (F := Ideal) .f32 0x00000000#32 = 0 := by
  rw [Ideal.ofBits_def, Ideal.ofBits_zero_f32]

/-! ## The graph side: the index columns and the edge factor -/

/-- The source column of the row gathers is the source column of the factor gathers: the same wrap of the same
    edge list. -/
private theorem v34_eq (x5 : Edges) : val_main_v34 (F := Ideal) x5 = val_main_v18 (F := Ideal) x5 := by
  unfold val_main_v34 val_main_v18 val_main_v31 val_main_v15 val_main_v33 val_main_v17 val_main_v30 val_main_v14
    val_main_v32 val_main_v16 val_main_c_5 val_main_c val_main_c_6 val_main_c_2
  rfl

private theorem v19_col (x5 : Edges) (e : Fin 1700000) :
    val_main_v19 (F := Ideal) x5 (ix2 e ⟨0, Nat.one_pos⟩) = val_main_v18 (F := Ideal) x5 (ix1 e) :=
  (val_main_v19_apply x5 _).trans (congrArg _ (funext fun a => Fin.ext (by match a with | ⟨0, _⟩ => rfl)))

private theorem v26_col (x5 : Edges) (e : Fin 1700000) :
    val_main_v26 (F := Ideal) x5 (ix2 e ⟨0, Nat.one_pos⟩) = val_main_v25 (F := Ideal) x5 (ix1 e) :=
  (val_main_v26_apply x5 _).trans (congrArg _ (funext fun a => Fin.ext (by match a with | ⟨0, _⟩ => rfl)))

private theorem v35_col (x5 : Edges) (e : Fin 1700000) :
    val_main_v35 (F := Ideal) x5 (ix2 e ⟨0, Nat.one_pos⟩) = val_main_v18 (F := Ideal) x5 (ix1 e) :=
  ((val_main_v35_apply x5 _).trans (congrArg _ (funext fun a => Fin.ext (by match a with | ⟨0, _⟩ => rfl)))).trans
    (congrFun (v34_eq x5) (ix1 e))

private theorem v41_col (x5 : Edges) (e : Fin 1700000) :
    val_main_v41 (F := Ideal) x5 (ix2 e ⟨0, Nat.one_pos⟩) = val_main_v6 (F := Ideal) x5 (ix1 e) :=
  (val_main_v41_apply x5 _).trans (congrArg _ (funext fun a => Fin.ext (by match a with | ⟨0, _⟩ => rfl)))

/-- The source node's factor, gathered for edge `e`. -/
private theorem v20_at (x5 : Edges) (e : Fin 1700000) :
    val_main_v20 (F := Ideal) x5 (ix1 e) = dnode x5 (srcRow x5 e) := by
  unfold val_main_v20
  have hd : gather_S100000_S1700000x1_S1700000_n_0_n_n_0_1_1
      = vecDims 100000 1700000 gather_S100000_S1700000x1_S1700000_n_0_n_n_0_1_1.wf := rfl
  rw [hd]
  exact gather_vec_at (by decide) _ _ _ e (srcRow x5 e) (by rw [v19_col]; rfl)

/-- The target node's factor, gathered for edge `e`. -/
private theorem v27_at (x5 : Edges) (e : Fin 1700000) :
    val_main_v27 (F := Ideal) x5 (ix1 e) = dnode x5 (dstRow x5 e) := by
  unfold val_main_v27
  have hd : gather_S100000_S1700000x1_S1700000_n_0_n_n_0_1_1
      = vecDims 100000 1700000 gather_S100000_S1700000x1_S1700000_n_0_n_n_0_1_1.wf := rfl
  rw [hd]
  exact gather_vec_at (by decide) _ _ _ e (dstRow x5 e) (by rw [v26_col]; rfl)

/-- Edge `e`'s factor: the product of its two nodes' factors. -/
private theorem v28_at (x5 : Edges) (e : Fin 1700000) :
    val_main_v28 (F := Ideal) x5 (ix1 e) = dnode x5 (srcRow x5 e) * dnode x5 (dstRow x5 e) := by
  rw [val_main_v28_apply, Ideal.mulf_def, v20_at, v27_at]

/-! ## The first layer -/

/-- The edge factor laid out over the 128 lanes. -/
private theorem v38_at (x5 : Edges) (e : Fin 1700000) (f : Fin 128) :
    val_main_v38 (F := Ideal) x5 (ix2 e f) = dnode x5 (srcRow x5 e) * dnode x5 (dstRow x5 e) := by
  have hi : idx_main_v37 (idx_main_v38 (ix2 e f)) = ix1 e :=
    funext fun a => Fin.ext (by match a with | ⟨0, _⟩ => rfl)
  rw [val_main_v38_apply, val_main_v37_apply, hi, v28_at]

/-- The source node's row of the product `x0 · x1`, gathered for edge `e`. -/
private theorem v36_at (x0 : (⟨S100000x128, .f32⟩ : BufTy).Contents (Elt Ideal))
    (x1 : (⟨S128x128, .f32⟩ : BufTy).Contents (Elt Ideal)) (x5 : Edges) (e : Fin 1700000) (f : Fin 128) :
    val_main_v36 (F := Ideal) x0 x1 x5 (ix2 e f) = ∑ k : Fin 128, x0 (ix2 (srcRow x5 e) k) * x1 (ix2 k f) := by
  unfold val_main_v36
  have hd : gather_S100000x128_S1700000x1_S1700000x128_1_0_n_n_0_1_1128
      = Cert.Proof.LibGatherRows.rowDims 100000 1700000 128 gather_S100000x128_S1700000x1_S1700000x128_1_0_n_n_0_1_1128.wf := rfl
  rw [hd]
  refine (gather_rows_at (by decide) _ _ _ e f (srcRow x5 e) (by rw [v35_col]; rfl)).trans ?_
  rw [val_main_v29_apply]
  refine Finset.sum_congr rfl fun k _ => ?_
  have hl : lidx_main_v29 (ix2 (srcRow x5 e) f) k = ix2 (srcRow x5 e) k :=
    funext fun a => Fin.ext (by match a with | ⟨0, _⟩ => rfl | ⟨1, _⟩ => rfl)
  have hr : ridx_main_v29 (ix2 (srcRow x5 e) f) k = ix2 k f :=
    funext fun a => Fin.ext (by match a with | ⟨0, _⟩ => rfl | ⟨1, _⟩ => rfl)
  rw [hl, hr]

/-- Edge `e`'s message: its source's row of the product, scaled by the edge factor. -/
private theorem v39_at (x0 : (⟨S100000x128, .f32⟩ : BufTy).Contents (Elt Ideal))
    (x1 : (⟨S128x128, .f32⟩ : BufTy).Contents (Elt Ideal)) (x5 : Edges) (e : Fin 1700000) (f : Fin 128) :
    val_main_v39 (F := Ideal) x0 x1 x5 (ix2 e f)
      = (∑ k : Fin 128, x0 (ix2 (srcRow x5 e) k) * x1 (ix2 k f)) * (dnode x5 (srcRow x5 e) * dnode x5 (dstRow x5 e)) := by
  rw [val_main_v39_apply, Ideal.mulf_def, v36_at, v38_at]

/-- The bias, laid out over the nodes. -/
private theorem v44_at (x2 : (⟨S128, .f32⟩ : BufTy).Contents (Elt Ideal)) (n : Fin 100000) (f : Fin 128) :
    val_main_v44 (F := Ideal) x2 (ix2 n f) = x2 (ix1 f) := by
  have hi : idx_main_v43 (idx_main_v44 (ix2 n f)) = ix1 f :=
    funext fun a => Fin.ext (by match a with | ⟨0, _⟩ => rfl)
  rw [val_main_v44_apply, val_main_v43_apply, hi]

/-- The scatter's dimension numbers are the row scatter's. -/
private theorem hd42 : scatter_S100000x128_S1700000x1_S1700000x128_1_0_0_1
    = Cert.Proof.LibSegmentSum.rowDims 100000 1700000 128 scatter_S100000x128_S1700000x1_S1700000x128_1_0_0_1.wf := rfl

private theorem v42_unf (x0 : (⟨S100000x128, .f32⟩ : BufTy).Contents (Elt Ideal))
    (x1 : (⟨S128x128, .f32⟩ : BufTy).Contents (Elt Ideal)) (x5 : Edges) :
    val_main_v42 (F := Ideal) x0 x1 x5
      = Ideal.hostScatterAdd (Cert.Proof.LibSegmentSum.rowDims 100000 1700000 128 scatter_S100000x128_S1700000x1_S1700000x128_1_0_0_1.wf)
          (val_main_v40 (F := Ideal)) (val_main_v41 (F := Ideal) x5) (val_main_v39 (F := Ideal) x0 x1 x5) := by
  unfold val_main_v42
  generalize val_main_v39 (F := Ideal) x0 x1 x5 = upd
  generalize val_main_v41 (F := Ideal) x5 = idx
  generalize val_main_v40 (F := Ideal) = z
  unfold Host.scatterAdd
  rw [Ideal.hostScatterAdd_def]
  exact congrArg (fun d => Ideal.hostScatterAdd d z idx upd) hd42

/-- The scatter read at `(n, f)`, over its own operands. -/
private theorem v42_read (x0 : (⟨S100000x128, .f32⟩ : BufTy).Contents (Elt Ideal))
    (x1 : (⟨S128x128, .f32⟩ : BufTy).Contents (Elt Ideal)) (x5 : Edges) (n : Fin 100000) (f : Fin 128) :
    val_main_v42 (F := Ideal) x0 x1 x5 (ix2 n f)
      = val_main_v40 (F := Ideal) (ix2 n f) + ∑ e : Fin 1700000,
          if (val_main_v41 (F := Ideal) x5 (ix2 e ⟨0, Nat.one_pos⟩)).toInt = ((n.val : ℕ) : ℤ)
            then val_main_v39 (F := Ideal) x0 x1 x5 (ix2 e f) else 0 := by
  rw [v42_unf]
  exact scatter_rows_at _ _ _ _ n f

/-- The messages summed onto their target nodes. -/
private theorem v42_at (x0 : (⟨S100000x128, .f32⟩ : BufTy).Contents (Elt Ideal))
    (x1 : (⟨S128x128, .f32⟩ : BufTy).Contents (Elt Ideal)) (x5 : Edges) (n : Fin 100000) (f : Fin 128) :
    val_main_v42 (F := Ideal) x0 x1 x5 (ix2 n f)
      = 0 + ∑ e : Fin 1700000, if hits x5 e n then
          (∑ k : Fin 128, x0 (ix2 (srcRow x5 e) k) * x1 (ix2 k f)) * (dnode x5 (srcRow x5 e) * dnode x5 (dstRow x5 e)) else 0 := by
  have hz : val_main_v40 (F := Ideal) (ix2 n f) = 0 := by
    rw [val_main_v40_apply, val_main_cst_7_apply, zero_f32]
  refine (v42_read x0 x1 x5 n f).trans ?_
  rw [hz]
  refine congrArg (fun s => (0 : EReal) + s) (Fintype.sum_congr _ _ fun e => ?_)
  refine if_congr ?_ (v39_at x0 x1 x5 e f) rfl
  rw [v41_col]
  exact Iff.rfl

/-- The first layer's activation at node `n`, feature `f`. -/
theorem ref_h1_at (x0 : (⟨S100000x128, .f32⟩ : BufTy).Contents (Elt Ideal)) (x1 : (⟨S128x128, .f32⟩ : BufTy).Contents (Elt Ideal))
    (x2 : (⟨S128, .f32⟩ : BufTy).Contents (Elt Ideal)) (x5 : Edges) (n : Fin 100000) (f : Fin 128) :
    val_main_v46 (F := Ideal) x0 x1 x2 x5 (ix2 n f)
      = max ((0 + ∑ e : Fin 1700000, if hits x5 e n then
            (∑ k : Fin 128, x0 (ix2 (srcRow x5 e) k) * x1 (ix2 k f)) * (dnode x5 (srcRow x5 e) * dnode x5 (dstRow x5 e)) else 0)
          + x2 (ix1 f)) 0 := by
  have hz : val_main_call0_v0 (F := Ideal) (ix2 n f) = 0 := by
    rw [val_main_call0_v0_apply, val_main_call0_cst_apply, zero_f32]
  rw [val_main_v46_apply, Ideal.maximumf_def, hz, val_main_v45_apply, Ideal.addf_def, v42_at, v44_at]

/-! ## The second layer: the same reads over the first layer's activation, 64 features -/

private theorem v52_eq (x5 : Edges) : val_main_v52 (F := Ideal) x5 = val_main_v18 (F := Ideal) x5 := by
  unfold val_main_v52 val_main_v18 val_main_v49 val_main_v15 val_main_v51 val_main_v17 val_main_v48 val_main_v14
    val_main_v50 val_main_v16 val_main_c_8 val_main_c val_main_c_9 val_main_c_2
  rfl

private theorem v53_col (x5 : Edges) (e : Fin 1700000) :
    val_main_v53 (F := Ideal) x5 (ix2 e ⟨0, Nat.one_pos⟩) = val_main_v18 (F := Ideal) x5 (ix1 e) :=
  ((val_main_v53_apply x5 _).trans (congrArg _ (funext fun a => Fin.ext (by match a with | ⟨0, _⟩ => rfl)))).trans
    (congrFun (v52_eq x5) (ix1 e))

private theorem v59_col (x5 : Edges) (e : Fin 1700000) :
    val_main_v59 (F := Ideal) x5 (ix2 e ⟨0, Nat.one_pos⟩) = val_main_v6 (F := Ideal) x5 (ix1 e) :=
  (val_main_v59_apply x5 _).trans (congrArg _ (funext fun a => Fin.ext (by match a with | ⟨0, _⟩ => rfl)))

/-- The edge factor laid out over the 64 lanes. -/
private theorem v56_at (x5 : Edges) (e : Fin 1700000) (f : Fin 64) :
    val_main_v56 (F := Ideal) x5 (ix2 e f) = dnode x5 (srcRow x5 e) * dnode x5 (dstRow x5 e) := by
  have hi : idx_main_v55 (idx_main_v56 (ix2 e f)) = ix1 e :=
    funext fun a => Fin.ext (by match a with | ⟨0, _⟩ => rfl)
  rw [val_main_v56_apply, val_main_v55_apply, hi, v28_at]

/-- The source node's row of the product `h1 · x3`, gathered for edge `e`. -/
private theorem v54_at (x0 : (⟨S100000x128, .f32⟩ : BufTy).Contents (Elt Ideal))
    (x1 : (⟨S128x128, .f32⟩ : BufTy).Contents (Elt Ideal)) (x2 : (⟨S128, .f32⟩ : BufTy).Contents (Elt Ideal))
    (x3 : (⟨S128x64, .f32⟩ : BufTy).Contents (Elt Ideal)) (x5 : Edges) (e : Fin 1700000) (f : Fin 64) :
    val_main_v54 (F := Ideal) x0 x1 x2 x3 x5 (ix2 e f)
      = ∑ k : Fin 128, val_main_v46 (F := Ideal) x0 x1 x2 x5 (ix2 (srcRow x5 e) k) * x3 (ix2 k f) := by
  unfold val_main_v54
  have hd : gather_S100000x64_S1700000x1_S1700000x64_1_0_n_n_0_1_164
      = Cert.Proof.LibGatherRows.rowDims 100000 1700000 64 gather_S100000x64_S1700000x1_S1700000x64_1_0_n_n_0_1_164.wf := rfl
  rw [hd]
  refine (gather_rows_at (by decide) _ _ _ e f (srcRow x5 e) (by rw [v53_col]; rfl)).trans ?_
  rw [val_main_v47_apply]
  refine Finset.sum_congr rfl fun k _ => ?_
  have hl : lidx_main_v47 (ix2 (srcRow x5 e) f) k = ix2 (srcRow x5 e) k :=
    funext fun a => Fin.ext (by match a with | ⟨0, _⟩ => rfl | ⟨1, _⟩ => rfl)
  have hr : ridx_main_v47 (ix2 (srcRow x5 e) f) k = ix2 k f :=
    funext fun a => Fin.ext (by match a with | ⟨0, _⟩ => rfl | ⟨1, _⟩ => rfl)
  rw [hl, hr]

/-- Edge `e`'s message in the second layer. -/
private theorem v57_at (x0 : (⟨S100000x128, .f32⟩ : BufTy).Contents (Elt Ideal))
    (x1 : (⟨S128x128, .f32⟩ : BufTy).Contents (Elt Ideal)) (x2 : (⟨S128, .f32⟩ : BufTy).Contents (Elt Ideal))
    (x3 : (⟨S128x64, .f32⟩ : BufTy).Contents (Elt Ideal)) (x5 : Edges) (e : Fin 1700000) (f : Fin 64) :
    val_main_v57 (F := Ideal) x0 x1 x2 x3 x5 (ix2 e f)
      = (∑ k : Fin 128, val_main_v46 (F := Ideal) x0 x1 x2 x5 (ix2 (srcRow x5 e) k) * x3 (ix2 k f))
          * (dnode x5 (srcRow x5 e) * dnode x5 (dstRow x5 e)) := by
  rw [val_main_v57_apply, Ideal.mulf_def, v54_at, v56_at]

/-- The second scatter's dimension numbers are the row scatter's. -/
private theorem hd60 : scatter_S100000x64_S1700000x1_S1700000x64_1_0_0_1
    = Cert.Proof.LibSegmentSum.rowDims 100000 1700000 64 scatter_S100000x64_S1700000x1_S1700000x64_1_0_0_1.wf := rfl

private theorem v60_unf (x0 : (⟨S100000x128, .f32⟩ : BufTy).Contents (Elt Ideal))
    (x1 : (⟨S128x128, .f32⟩ : BufTy).Contents (Elt Ideal)) (x2 : (⟨S128, .f32⟩ : BufTy).Contents (Elt Ideal))
    (x3 : (⟨S128x64, .f32⟩ : BufTy).Contents (Elt Ideal)) (x5 : Edges) :
    val_main_v60 (F := Ideal) x0 x1 x2 x3 x5
      = Ideal.hostScatterAdd (Cert.Proof.LibSegmentSum.rowDims 100000 1700000 64 scatter_S100000x64_S1700000x1_S1700000x64_1_0_0_1.wf)
          (val_main_v58 (F := Ideal)) (val_main_v59 (F := Ideal) x5) (val_main_v57 (F := Ideal) x0 x1 x2 x3 x5) := by
  unfold val_main_v60
  generalize val_main_v57 (F := Ideal) x0 x1 x2 x3 x5 = upd
  generalize val_main_v59 (F := Ideal) x5 = idx
  generalize val_main_v58 (F := Ideal) = z
  unfold Host.scatterAdd
  rw [Ideal.hostScatterAdd_def]
  exact congrArg (fun d => Ideal.hostScatterAdd d z idx upd) hd60

/-- The second scatter read at `(n, f)`, over its own operands. -/
private theorem v60_read (x0 : (⟨S100000x128, .f32⟩ : BufTy).Contents (Elt Ideal))
    (x1 : (⟨S128x128, .f32⟩ : BufTy).Contents (Elt Ideal)) (x2 : (⟨S128, .f32⟩ : BufTy).Contents (Elt Ideal))
    (x3 : (⟨S128x64, .f32⟩ : BufTy).Contents (Elt Ideal)) (x5 : Edges) (n : Fin 100000) (f : Fin 64) :
    val_main_v60 (F := Ideal) x0 x1 x2 x3 x5 (ix2 n f)
      = val_main_v58 (F := Ideal) (ix2 n f) + ∑ e : Fin 1700000,
          if (val_main_v59 (F := Ideal) x5 (ix2 e ⟨0, Nat.one_pos⟩)).toInt = ((n.val : ℕ) : ℤ)
            then val_main_v57 (F := Ideal) x0 x1 x2 x3 x5 (ix2 e f) else 0 := by
  rw [v60_unf]
  exact scatter_rows_at _ _ _ _ n f

/-- The second layer's messages summed onto their target nodes. -/
private theorem v60_at (x0 : (⟨S100000x128, .f32⟩ : BufTy).Contents (Elt Ideal))
    (x1 : (⟨S128x128, .f32⟩ : BufTy).Contents (Elt Ideal)) (x2 : (⟨S128, .f32⟩ : BufTy).Contents (Elt Ideal))
    (x3 : (⟨S128x64, .f32⟩ : BufTy).Contents (Elt Ideal)) (x5 : Edges) (n : Fin 100000) (f : Fin 64) :
    val_main_v60 (F := Ideal) x0 x1 x2 x3 x5 (ix2 n f)
      = 0 + ∑ e : Fin 1700000, if hits x5 e n then
          (∑ k : Fin 128, val_main_v46 (F := Ideal) x0 x1 x2 x5 (ix2 (srcRow x5 e) k) * x3 (ix2 k f))
            * (dnode x5 (srcRow x5 e) * dnode x5 (dstRow x5 e)) else 0 := by
  have hz : val_main_v58 (F := Ideal) (ix2 n f) = 0 := by
    rw [val_main_v58_apply, val_main_cst_10_apply, zero_f32]
  refine (v60_read x0 x1 x2 x3 x5 n f).trans ?_
  rw [hz]
  refine congrArg (fun s => (0 : EReal) + s) (Fintype.sum_congr _ _ fun e => ?_)
  refine if_congr ?_ (v57_at x0 x1 x2 x3 x5 e f) rfl
  rw [v59_col]
  exact Iff.rfl

/-- The second bias, laid out over the nodes. -/
private theorem v62_at (x4 : (⟨S64, .f32⟩ : BufTy).Contents (Elt Ideal)) (n : Fin 100000) (f : Fin 64) :
    val_main_v62 (F := Ideal) x4 (ix2 n f) = x4 (ix1 f) := by
  have hi : idx_main_v61 (idx_main_v62 (ix2 n f)) = ix1 f :=
    funext fun a => Fin.ext (by match a with | ⟨0, _⟩ => rfl)
  rw [val_main_v62_apply, val_main_v61_apply, hi]

/-- The result at node `n`, feature `f`, from the first layer's activation. -/
theorem ref_out_at (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (x5 : Edges) (n : Fin 100000) (f : Fin 64) :
    val_main_v64 (F := Ideal) x0 x1 x2 x3 x4 x5 (ix2 n f)
      = max ((0 + ∑ e : Fin 1700000, if hits x5 e n then
            (∑ k : Fin 128, val_main_v46 (F := Ideal) x0 x1 x2 x5 (ix2 (srcRow x5 e) k) * x3 (ix2 k f))
              * (dnode x5 (srcRow x5 e) * dnode x5 (dstRow x5 e)) else 0)
          + x4 (ix1 f)) 0 := by
  have hz : val_main_call1_v0 (F := Ideal) (ix2 n f) = 0 := by
    rw [val_main_call1_v0_apply, val_main_call1_cst_apply, zero_f32]
  rw [val_main_v64_apply, Ideal.maximumf_def, hz, val_main_v63_apply, Ideal.addf_def, v60_at, v62_at]

end Cert.Gcn.Ref

end
-- ==== Proof.Algebra.lean ====
/-
  The one algebraic law behind factoring a symmetric edge normalisation into per-node scalings, over the
  extended reals.

  A factor `d` with `0 ≤ d` and `d ≠ ⊤` distributes over any sum of extended reals — the infinities included,
  since a sum that mixes `⊤` and `⊥` is `⊥` and stays `⊥` on both sides.  Hence, for edges `e` of which some
  `hit` a node, with a message `a e`, a source factor `s e` and a target factor `t e` that equals the node's own
  factor `d` on every edge that hits it,

    Σ_{e hits} a e · (s e · t e) = (Σ_{e hits} a e · s e) · d.

  The node factors of the layer are inverse square roots of degrees clipped below at one: such a value is
  never negative and never `⊤`.
-/
import Idealize.ShloMosaic.PureOps.Ideal

noncomputable section

open scoped BigOperators

namespace Cert.Gcn

/-- A nonnegative factor other than `⊤` distributes over a finite sum of extended reals. -/
theorem sum_mul_of_nonneg_of_ne_top {ι : Type*} (S : Finset ι) (f : ι → EReal) {d : EReal} (h0 : 0 ≤ d) (ht : d ≠ ⊤) :
    (∑ i ∈ S, f i) * d = ∑ i ∈ S, f i * d := by
  classical
  induction S using Finset.induction_on with
  | empty => simp
  | insert a S ha ih =>
    rw [Finset.sum_insert ha, Finset.sum_insert ha, EReal.right_distrib_of_nonneg_of_ne_top h0 ht, ih]

/-- The layer law: the target factor, constant on the edges that hit the node, comes out of the aggregation. -/
theorem agg_factor {ι : Type*} [Fintype ι] (hit : ι → Prop) [DecidablePred hit] (a s t : ι → EReal) {d : EReal}
    (h0 : 0 ≤ d) (ht : d ≠ ⊤) (hst : ∀ e, hit e → t e = d) :
    (0 + ∑ e, if hit e then a e * (s e * t e) else 0) = (0 + ∑ e, if hit e then a e * s e else 0) * d := by
  rw [zero_add, zero_add, sum_mul_of_nonneg_of_ne_top _ _ h0 ht]
  refine Finset.sum_congr rfl fun e _ => ?_
  by_cases h : hit e
  · rw [if_pos h, if_pos h, hst e h, mul_assoc]
  · rw [if_neg h, if_neg h, zero_mul]

/-- The inverse square root of a value that is at least one is nonnegative and is not `⊤`. -/
theorem rsqrt_of_one_le (x : EReal) (hx : 1 ≤ x) : 0 ≤ Idealize.ShloMosaic.Ideal.rsqrt x ∧ Idealize.ShloMosaic.Ideal.rsqrt x ≠ ⊤ := by
  induction x using EReal.rec with
  | bot => exact absurd (le_bot_iff.mp hx) (by rw [← EReal.coe_one]; exact EReal.coe_ne_bot 1)
  | top => exact ⟨le_of_eq rfl, by show (0 : EReal) ≠ ⊤; exact EReal.zero_ne_top⟩
  | coe r =>
    have hr : (1 : ℝ) ≤ r := by exact_mod_cast hx
    have h1 : ¬ r < 0 := by linarith
    have h2 : ¬ r = 0 := by linarith
    show 0 ≤ (if r < 0 then (⊥ : EReal) else if r = 0 then ⊤ else (((Real.sqrt r)⁻¹ : ℝ) : EReal)) ∧
      (if r < 0 then (⊥ : EReal) else if r = 0 then ⊤ else (((Real.sqrt r)⁻¹ : ℝ) : EReal)) ≠ ⊤
    rw [if_neg h1, if_neg h2]
    exact ⟨by exact_mod_cast inv_nonneg.mpr (Real.sqrt_nonneg r), EReal.coe_ne_top _⟩

end Cert.Gcn

end
-- ==== Proof.LibIndexWrap.lean ====
/-
  An index already in range passes unchanged through jnp's negative-index wrap and a gather's clamp.

  `x[i]` in jnp first replaces a negative `i` by `i + N` (a signed compare with zero, an add, a select) and
  the gather then clamps its start index, read as a signed number, into `[0, N - 1]`.  For a word that
  already names a row — `0 ≤ i < N`, with `N` at most `2 ^ 31` — neither step changes it.
-/
import Idealize.ShloMosaic.Lib.ValueIdx

open Idealize.ShloMosaic Idealize.ShloMosaic.ValueIdx

namespace Cert.Proof.LibIndexWrap

/-- A word below `2 ^ 31` read as a signed number is the word read as a natural number. -/
theorem toInt_eq_toNat (w : BitVec 32) (h : w.toNat < 2 ^ 31) : w.toInt = (w.toNat : ℤ) := by
  rw [BitVec.toInt_eq_toNat_cond]
  split <;> omega

/-- Such a word is not negative: the signed compare with zero answers no. -/
theorem cmpi_slt_zero (w : BitVec 32) (h : w.toNat < 2 ^ 31) : IntOp.cmpi .slt w 0#32 = 0#1 := by
  have hs : w.slt 0#32 = false := by
    rw [BitVec.slt, toInt_eq_toNat w h]
    simp
  unfold IntOp.cmpi
  rw [hs]
  rfl

/-- The wrap leaves it alone. -/
theorem wrap_eq (w N : BitVec 32) (h : w.toNat < 2 ^ 31) :
    Scalar.select (IntOp.cmpi .slt w 0#32) (IntOp.addi w N) w = w := by
  rw [cmpi_slt_zero w h]
  exact select_zero _ _

/-- The clamp leaves it alone. -/
theorem clamp_eq (w : BitVec 32) (N : ℕ) (hN : N ≤ 2 ^ 31) (h : w.toNat < N) :
    min w.toInt.toNat (N - 1) = w.toNat := by
  rw [toInt_eq_toNat w (by omega)]
  simp only [Int.toNat_natCast]
  omega

end Cert.Proof.LibIndexWrap
-- ==== Proof.LibColumnCast.lean ====
/-
  A vector `[a]` cast to a column `[a, 1]` reads, at `(i, u)`, the vector at `i`, whatever the unit coordinate `u`.
-/
import Idealize.ShloMosaic.Lib.Pipeline.Value
import Idealize.ShloMosaic.Lib.ValueIdx

namespace Cert.Proof.LibColumnCast

open Idealize.ShloMosaic Idealize.ShloMosaic.ValueIdx

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Proof.LibColumnCast
-- ==== Proof.BridgeFacts.lean ====
/-
  The small facts the layers' agreement rests on: a node's factor is nonnegative and not `⊤`; an edge that lands on
  node `n` has `n` as the row a gather reads for its target (the negative-index wrap and the clamp leave an index in
  range alone); the factor column and the bias rows read at an entry.
-/
import proofs.«163434_j85229331021973_2_alg».proof.Proof.KernelSpec
import proofs.«163434_j85229331021973_2_alg».proof.Proof.Algebra
import proofs.«163434_j85229331021973_2_alg».proof.Proof.LibIndexWrap
import proofs.«163434_j85229331021973_2_alg».proof.Proof.LibColumnCast
import Idealize.ShloMosaic.Lib.IdealHost
import Idealize.ShloMosaic.Lib.ValueLayout
import Idealize.ShloMosaic.PureOps.Ideal.Laws

set_option pp.maxSteps 8000
set_option pp.deepTerms false

noncomputable section

open scoped BigOperators

namespace Cert.Gcn.Bridge

open Cert.KernelIdeal Cert.KernelIdeal.Gen Cert.KernelIdeal.KValue Idealize.ShloMosaic Idealize.ShloMosaic.ValueIdx Cert.Gcn Cert.Gcn.Ref
open Cert.ReferenceIdeal.Read Cert.Proof

variable (x5 : Edges)

/-- A node's factor is nonnegative and is not `⊤`. -/
theorem dnode_facts (n : Fin 100000) : 0 ≤ dnode x5 n ∧ dnode x5 n ≠ ⊤ := by
  have h1 : (1 : EReal) ≤ val_main_v12 (F := Ideal) x5 (ix1 n) := by
    rw [val_main_v12_apply, val_main_v11_apply, val_main_cst_1_apply, Ideal.ofBits_def, Ideal.ofBits_one_f32,
      Ideal.maximumf_def]
    exact le_max_right _ _
  have h2 : dnode x5 n = Ideal.rsqrt (val_main_v12 (F := Ideal) x5 (ix1 n)) := by
    unfold dnode
    rw [val_main_v13_apply, Ideal.hostUnary_rsqrt_def]
  rw [h2]
  exact rsqrt_of_one_le _ h1

/-- An edge that lands on node `n` has `n` as the row a gather reads for its target. -/
theorem dstRow_of_hits (e : Fin 1700000) (n : Fin 100000) (h : hits x5 e n) : dstRow x5 e = n := by
  have hn := n.isLt
  have h' : (val_main_v6 (F := Ideal) x5 (ix1 e)).toInt = ((n.val : ℕ) : ℤ) := h
  have hnat : (val_main_v6 (F := Ideal) x5 (ix1 e)).toNat = n.val ∧ (val_main_v6 (F := Ideal) x5 (ix1 e)).toNat < 2 ^ 31 := by
    rw [BitVec.toInt_eq_toNat_cond] at h'
    split at h' <;> omega
  have hv25 : val_main_v25 (F := Ideal) x5 (ix1 e) = val_main_v6 (F := Ideal) x5 (ix1 e) := by
    rw [val_main_v25_apply, val_main_v22_apply, val_main_v24_apply, val_main_v21_apply, val_main_v23_apply,
      val_main_c_3_apply, val_main_c_4_apply]
    exact LibIndexWrap.wrap_eq _ _ hnat.2
  refine Fin.ext ?_
  show min (val_main_v25 (F := Ideal) x5 (ix1 e)).toInt.toNat (100000 - 1) = n.val
  rw [hv25, LibIndexWrap.clamp_eq _ 100000 (by norm_num) (by omega)]
  exact hnat.1

/-- The factor column at `(n, 0)` is node `n`'s factor. -/
theorem dcol_at (n : Fin 100000) : dcol x5 (ix2 n z1) = dnode x5 n :=
  LibColumnCast.shapeCast_a_a1_apply _ _ n z1

theorem b1row_at (x2 : S128.Idx → EReal) (f : Fin 128) : b1row x2 (ix2 z1 f) = x2 (ix1 f) :=
  shapeCast_a_1a_apply x2 _ z1 f

theorem b2row_at (x4 : S64.Idx → EReal) (f : Fin 64) : b2row x4 (ix2 z1 f) = x4 (ix1 f) :=
  shapeCast_a_1a_apply x4 _ z1 f

end Cert.Gcn.Bridge

end
-- ==== Proof.LibAggregate.lean ====
/-
  Message passing on the host, read at an entry: rows of a table `y : [N, H]` gathered at a vector of source indices
  and scatter-added into a table of zeros at a vector of target indices (jax's `segment_sum(y[src], dst)`), with both
  index vectors laid out as `[E, 1]` columns the way the lowering does.

  Entry `(n, f)` of the result is the sum, over the edges `e` whose target index is `n`, of `y` at the row the gather
  reads for `e` — the source index read signed and clamped into `[0, N - 1]` — and column `f`.  Also: a vector laid
  out as an `[E, 1]` column, read at `(e, 0)`.
-/
import Idealize.ShloMosaic.PureOps.Ideal
import Idealize.ShloMosaic.Lib.ValueIdx
import Idealize.ShloMosaic.Lib.Pipeline.Value
import proofs.«163434_j85229331021973_2_alg».proof.Proof.LibSegmentSum
import proofs.«163434_j85229331021973_2_alg».proof.Proof.LibGatherRows

noncomputable section

open scoped BigOperators

namespace Cert.Proof.LibAggregate

open Idealize.ShloMosaic Idealize.ShloMosaic.ValueIdx

/-- A vector `[E]` laid out as a column `[E, 1]`, read at `(e, 0)`, is the vector at `e`. -/
theorem column_apply {α : Type} {E : Nat} (h : (⟨1, ![E]⟩ : Shape).BroadcastsInDim ⟨2, ![E, 1]⟩ (![0] : Fin 1 → Fin 2))
    (v : (⟨1, ![E]⟩ : Shape).Idx → α) (e : Fin E) :
    broadcastInDim (⟨2, ![E, 1]⟩ : Shape) (![0] : Fin 1 → Fin 2) h v (ix2 e ⟨0, Nat.one_pos⟩) = v (ix1 e) :=
  broadcastInDim_apply (![0] : Fin 1 → Fin 2) h v (ix2 e ⟨0, Nat.one_pos⟩) (ix1 e) (fun a => by
    match a with
    | ⟨0, _⟩ =>
      show e.val = if E = 1 then 0 else e.val
      split
      · have := e.isLt; omega
      · rfl)

/-- GATHER ROWS, THEN SCATTER-ADD THEM INTO ZEROS, at entry `(n, f)`. -/
theorem gather_scatter_apply {N E H : Nat} (hN : 0 < N)
    (swf : ScatterDims.WF ⟨2, ![N, H]⟩ ⟨2, ![E, 1]⟩ ⟨2, ![E, H]⟩ [1] [0] [0] 1)
    (gwf : GatherDims.WF ⟨2, ![N, H]⟩ ⟨2, ![E, 1]⟩ ⟨2, ![E, H]⟩ [1] [0] [] [0] [] 1 ![1, H])
    (hb : (⟨1, ![E]⟩ : Shape).BroadcastsInDim ⟨2, ![E, 1]⟩ (![0] : Fin 1 → Fin 2))
    (zeros : (⟨2, ![N, H]⟩ : Shape).Idx → EReal) (hz : ∀ i, zeros i = 0)
    (y : (⟨2, ![N, H]⟩ : Shape).Idx → EReal) (srcv dstv : (⟨1, ![E]⟩ : Shape).Idx → BitVec 32) (n : Fin N) (f : Fin H) :
    Ideal.hostScatterAdd (LibSegmentSum.rowDims N E H swf) zeros
        (broadcastInDim (⟨2, ![E, 1]⟩ : Shape) (![0] : Fin 1 → Fin 2) hb dstv)
        (Host.gather (LibGatherRows.rowDims N E H gwf) y (broadcastInDim (⟨2, ![E, 1]⟩ : Shape) (![0] : Fin 1 → Fin 2) hb srcv))
        (ix2 n f)
      = 0 + ∑ e : Fin E, if (dstv (ix1 e)).toInt = ((n.val : ℕ) : ℤ)
          then y (ix2 ⟨min (srcv (ix1 e)).toInt.toNat (N - 1), by omega⟩ f) else 0 := by
  refine (LibSegmentSum.scatterAdd_rows_apply swf zeros _ _ (ix2 n f)).trans ?_
  rw [hz]
  refine congrArg (0 + ·) (Finset.sum_congr rfl fun e _ => ?_)
  have hd : broadcastInDim (⟨2, ![E, 1]⟩ : Shape) (![0] : Fin 1 → Fin 2) hb dstv (LibSegmentSum.segIdx e) = dstv (ix1 e) :=
    column_apply hb dstv e
  have hs : broadcastInDim (⟨2, ![E, 1]⟩ : Shape) (![0] : Fin 1 → Fin 2) hb srcv (LibGatherRows.rowIdx e) = srcv (ix1 e) :=
    column_apply hb srcv e
  have hg := LibGatherRows.gather_rows_apply hN gwf y
    (broadcastInDim (⟨2, ![E, 1]⟩ : Shape) (![0] : Fin 1 → Fin 2) hb srcv) (ix2 e f)
  rw [hd]
  refine if_congr Iff.rfl ?_ rfl
  refine hg.trans ?_
  refine congrArg y (congrArg₂ ix2 (Fin.ext ?_) rfl)
  show min (broadcastInDim (⟨2, ![E, 1]⟩ : Shape) (![0] : Fin 1 → Fin 2) hb srcv (LibGatherRows.rowIdx e)).toInt.toNat (N - 1) = _
  rw [hs]

end Cert.Proof.LibAggregate

end
-- ==== Proof.BridgeAgg.lean ====
/-
  The kernel's two neighbour aggregations read at an entry.
-/
import proofs.«163434_j85229331021973_2_alg».proof.Proof.KernelSpec
import proofs.«163434_j85229331021973_2_alg».proof.Proof.LibAggregate
import Idealize.ShloMosaic.PureOps.Ideal.Laws

set_option pp.maxSteps 8000
set_option pp.deepTerms false

noncomputable section

open scoped BigOperators

namespace Cert.Gcn.Bridge

open Cert.KernelIdeal Cert.KernelIdeal.Gen Cert.KernelIdeal.KValue Idealize.ShloMosaic Idealize.ShloMosaic.ValueIdx Cert.Gcn Cert.Gcn.Ref
open Cert.ReferenceIdeal.Read Cert.Proof

variable (x5 : Edges)

/-- The printed 128-wide scatter record is the row scatter's, and the printed gather record the row gather's. -/
theorem sd128_eq : scatter_S100000x128_S1700000x1_S1700000x128_1_0_0_1 = LibSegmentSum.rowDims 100000 1700000 128 scatter_S100000x128_S1700000x1_S1700000x128_1_0_0_1_wf := rfl
theorem gd128_eq : gather_S100000x128_S1700000x1_S1700000x128_1_0_n_n_0_1_1128 = LibGatherRows.rowDims 100000 1700000 128 gather_S100000x128_S1700000x1_S1700000x128_1_0_n_n_0_1_1128_wf := rfl

/-- The host's accumulating scatter at the printed record, on any operands, is the exact sum at the row record. -/
theorem scatter128_eq (z : S100000x128.Idx → EReal) (idx : S1700000x1.Idx → BitVec 32) (upd : S1700000x128.Idx → EReal) :
    Host.scatterAdd (F := Ideal) (φ := .f32) scatter_S100000x128_S1700000x1_S1700000x128_1_0_0_1 z idx upd
      = Ideal.hostScatterAdd (LibSegmentSum.rowDims 100000 1700000 128 scatter_S100000x128_S1700000x1_S1700000x128_1_0_0_1_wf) z idx upd :=
  congrArg (fun d => Ideal.hostScatterAdd d z idx upd) sd128_eq

theorem gather128_eq (y : S100000x128.Idx → EReal) (idx : S1700000x1.Idx → BitVec 32) :
    Host.gather gather_S100000x128_S1700000x1_S1700000x128_1_0_n_n_0_1_1128 y idx = Host.gather (LibGatherRows.rowDims 100000 1700000 128 gather_S100000x128_S1700000x1_S1700000x128_1_0_n_n_0_1_1128_wf) y idx :=
  congrArg (fun d => Host.gather d y idx) gd128_eq

/-- The 128-wide aggregation, as the scatter of the gather at the row records. -/
theorem agg128_eq (y : S100000x128.Idx → EReal) :
    agg128 y x5 = Ideal.hostScatterAdd (LibSegmentSum.rowDims 100000 1700000 128 scatter_S100000x128_S1700000x1_S1700000x128_1_0_0_1_wf)
      (broadcastInDim S100000x128 ![] bcast_S_S100000x128 (constant (F := Ideal) S_ .f32 0x00000000#32))
      (broadcastInDim S1700000x1 ![0] bcast_S1700000_S1700000x1_0 (val_main_v6 (F := Ideal) x5))
      (Host.gather (LibGatherRows.rowDims 100000 1700000 128 gather_S100000x128_S1700000x1_S1700000x128_1_0_n_n_0_1_1128_wf) y
        (broadcastInDim S1700000x1 ![0] bcast_S1700000_S1700000x1_0 (val_main_v18 (F := Ideal) x5))) :=
  (scatter128_eq _ _ _).trans (congrArg (Ideal.hostScatterAdd _ _ _) (gather128_eq y _))

/-- The 128-wide aggregation at an entry: the sum, over the edges landing on the node, of the table at the edge's
    source row. -/
theorem agg128_at (y : S100000x128.Idx → EReal) (n : Fin 100000) (f : Fin 128) :
    agg128 y x5 (ix2 n f) = 0 + ∑ e : Fin 1700000, if hits x5 e n then y (ix2 (srcRow x5 e) f) else 0 :=
  (congrFun (agg128_eq x5 y) (ix2 n f)).trans
    ((LibAggregate.gather_scatter_apply (N := 100000) (E := 1700000) (H := 128) (by norm_num)
      scatter_S100000x128_S1700000x1_S1700000x128_1_0_0_1_wf gather_S100000x128_S1700000x1_S1700000x128_1_0_n_n_0_1_1128_wf bcast_S1700000_S1700000x1_0
      (broadcastInDim S100000x128 ![] bcast_S_S100000x128 (constant (F := Ideal) S_ .f32 0x00000000#32))
      (fun i => (broadcastInDim_apply _ bcast_S_S100000x128 _ i (fun a => a.elim0) (fun a => a.elim0)).trans Ideal.ofBits_zero_f32)
      y (val_main_v18 (F := Ideal) x5) (val_main_v6 (F := Ideal) x5) n f).trans
      (congrArg (0 + ·) (Finset.sum_congr rfl fun e _ =>
        if_congr (Iff.of_eq (by unfold hits; rfl)) (by unfold srcRow; rfl) rfl)))

/-- The printed 64-wide scatter record is the row scatter's, and the printed gather record the row gather's. -/
theorem sd64_eq : scatter_S100000x64_S1700000x1_S1700000x64_1_0_0_1 = LibSegmentSum.rowDims 100000 1700000 64 scatter_S100000x64_S1700000x1_S1700000x64_1_0_0_1_wf := rfl
theorem gd64_eq : gather_S100000x64_S1700000x1_S1700000x64_1_0_n_n_0_1_164 = LibGatherRows.rowDims 100000 1700000 64 gather_S100000x64_S1700000x1_S1700000x64_1_0_n_n_0_1_164_wf := rfl

/-- The host's accumulating scatter at the printed record, on any operands, is the exact sum at the row record. -/
theorem scatter64_eq (z : S100000x64.Idx → EReal) (idx : S1700000x1.Idx → BitVec 32) (upd : S1700000x64.Idx → EReal) :
    Host.scatterAdd (F := Ideal) (φ := .f32) scatter_S100000x64_S1700000x1_S1700000x64_1_0_0_1 z idx upd
      = Ideal.hostScatterAdd (LibSegmentSum.rowDims 100000 1700000 64 scatter_S100000x64_S1700000x1_S1700000x64_1_0_0_1_wf) z idx upd :=
  congrArg (fun d => Ideal.hostScatterAdd d z idx upd) sd64_eq

theorem gather64_eq (y : S100000x64.Idx → EReal) (idx : S1700000x1.Idx → BitVec 32) :
    Host.gather gather_S100000x64_S1700000x1_S1700000x64_1_0_n_n_0_1_164 y idx = Host.gather (LibGatherRows.rowDims 100000 1700000 64 gather_S100000x64_S1700000x1_S1700000x64_1_0_n_n_0_1_164_wf) y idx :=
  congrArg (fun d => Host.gather d y idx) gd64_eq

/-- The 64-wide aggregation, as the scatter of the gather at the row records. -/
theorem agg64_eq (y : S100000x64.Idx → EReal) :
    agg64 y x5 = Ideal.hostScatterAdd (LibSegmentSum.rowDims 100000 1700000 64 scatter_S100000x64_S1700000x1_S1700000x64_1_0_0_1_wf)
      (broadcastInDim S100000x64 ![] bcast_S_S100000x64 (constant (F := Ideal) S_ .f32 0x00000000#32))
      (broadcastInDim S1700000x1 ![0] bcast_S1700000_S1700000x1_0 (val_main_v6 (F := Ideal) x5))
      (Host.gather (LibGatherRows.rowDims 100000 1700000 64 gather_S100000x64_S1700000x1_S1700000x64_1_0_n_n_0_1_164_wf) y
        (broadcastInDim S1700000x1 ![0] bcast_S1700000_S1700000x1_0 (val_main_v18 (F := Ideal) x5))) :=
  (scatter64_eq _ _ _).trans (congrArg (Ideal.hostScatterAdd _ _ _) (gather64_eq y _))

/-- The 64-wide aggregation at an entry: the sum, over the edges landing on the node, of the table at the edge's
    source row. -/
theorem agg64_at (y : S100000x64.Idx → EReal) (n : Fin 100000) (f : Fin 64) :
    agg64 y x5 (ix2 n f) = 0 + ∑ e : Fin 1700000, if hits x5 e n then y (ix2 (srcRow x5 e) f) else 0 :=
  (congrFun (agg64_eq x5 y) (ix2 n f)).trans
    ((LibAggregate.gather_scatter_apply (N := 100000) (E := 1700000) (H := 64) (by norm_num)
      scatter_S100000x64_S1700000x1_S1700000x64_1_0_0_1_wf gather_S100000x64_S1700000x1_S1700000x64_1_0_n_n_0_1_164_wf bcast_S1700000_S1700000x1_0
      (broadcastInDim S100000x64 ![] bcast_S_S100000x64 (constant (F := Ideal) S_ .f32 0x00000000#32))
      (fun i => (broadcastInDim_apply _ bcast_S_S100000x64 _ i (fun a => a.elim0) (fun a => a.elim0)).trans Ideal.ofBits_zero_f32)
      y (val_main_v18 (F := Ideal) x5) (val_main_v6 (F := Ideal) x5) n f).trans
      (congrArg (0 + ·) (Finset.sum_congr rfl fun e _ =>
        if_congr (Iff.of_eq (by unfold hits; rfl)) (by unfold srcRow; rfl) rfl)))

end Cert.Gcn.Bridge

end
-- ==== Proof.Bridge.lean ====
/-
  The kernel's function of the argument arrays is the reference's.

  Entry `(n, f)` of a layer, as the kernel forms it, is
    `max ((Σ_{e → n} (Σ_k h[src e, k] · W[k, f]) · d[src e]) · d[n] + b[f]) 0`,
  the rows scaled by the source's factor before the aggregation and by the target's after it; as the reference forms
  it the same messages are scaled by `d[src e] · d[dst e]` edge by edge.  An edge that lands on node `n` has target
  index `n`, which the negative-index wrap and the gather's clamp leave alone, so `d[dst e] = d[n]` on those edges;
  each factor is an inverse square root of a value at least one, hence nonnegative and not `⊤`, and such a factor
  comes out of a sum of extended reals.  The two layers follow one after the other.
-/
import proofs.«163434_j85229331021973_2_alg».proof.Proof.BridgeFacts
import proofs.«163434_j85229331021973_2_alg».proof.Proof.BridgeAgg

set_option pp.maxSteps 8000
set_option pp.deepTerms false

noncomputable section

open scoped BigOperators

namespace Cert.Gcn.Bridge

open Cert.KernelIdeal Cert.KernelIdeal.Gen Cert.KernelIdeal.KValue Idealize.ShloMosaic Idealize.ShloMosaic.ValueIdx Cert.Gcn Cert.Gcn.Ref
open Cert.ReferenceIdeal.Read Cert.Proof

variable (x5 : Edges)

-- from here on the graph quantities and the aggregations are used by name only
attribute [local irreducible] agg128 agg64 dcol b1row b2row dnode srcRow dstRow hits

/-- ONE LAYER AT AN ENTRY, kernel's arrangement to reference's: for any aggregation that reads at an entry as the sum
    over the edges landing there of the table at the edge's source row. -/
theorem layer_at {H : Nat} (agg : M2 100000 H → M2 100000 H)
    (hagg : ∀ (y : M2 100000 H) (n : Fin 100000) (f : Fin H),
      agg y (ix2 n f) = 0 + ∑ e : Fin 1700000, if hits x5 e n then y (ix2 (srcRow x5 e) f) else 0)
    (h : M2 100000 128) (W : M2 128 H) (brow : M2 1 H) (n : Fin 100000) (f : Fin H) :
    scaleBiasRelu (agg (denseScaled h W (dcol x5))) (dcol x5) brow (ix2 n f)
      = max ((0 + ∑ e : Fin 1700000, if hits x5 e n then
            (∑ k : Fin 128, h (ix2 (srcRow x5 e) k) * W (ix2 k f)) * (dnode x5 (srcRow x5 e) * dnode x5 (dstRow x5 e)) else 0)
          + brow (ix2 z1 f)) 0 := by
  -- a scaled dense row at the edge's source
  have hD : ∀ e : Fin 1700000, denseScaled h W (dcol x5) (ix2 (srcRow x5 e) f)
      = (∑ k : Fin 128, h (ix2 (srcRow x5 e) k) * W (ix2 k f)) * dnode x5 (srcRow x5 e) := fun e =>
    (show denseScaled h W (dcol x5) (ix2 (srcRow x5 e) f)
        = (∑ k : Fin 128, h (ix2 (srcRow x5 e) k) * W (ix2 k f)) * dcol x5 (ix2 (srcRow x5 e) z1) from rfl).trans
      (congrArg ((∑ k : Fin 128, h (ix2 (srcRow x5 e) k) * W (ix2 k f)) * ·) (dcol_at x5 (srcRow x5 e)))
  -- the aggregation of those rows
  have hS : agg (denseScaled h W (dcol x5)) (ix2 n f)
      = 0 + ∑ e : Fin 1700000, if hits x5 e n then
          (∑ k : Fin 128, h (ix2 (srcRow x5 e) k) * W (ix2 k f)) * dnode x5 (srcRow x5 e) else 0 :=
    (hagg _ n f).trans (congrArg (0 + ·) (Finset.sum_congr rfl fun e _ => if_congr Iff.rfl (hD e) rfl))
  -- the target's factor comes out of the sum
  have hF := agg_factor (fun e => hits x5 e n) (fun e => ∑ k : Fin 128, h (ix2 (srcRow x5 e) k) * W (ix2 k f))
    (fun e => dnode x5 (srcRow x5 e)) (fun e => dnode x5 (dstRow x5 e)) (dnode_facts x5 n).1 (dnode_facts x5 n).2
    (fun e he => congrArg (dnode x5) (dstRow_of_hits x5 e n he))
  refine (show scaleBiasRelu (agg (denseScaled h W (dcol x5))) (dcol x5) brow (ix2 n f)
      = max (agg (denseScaled h W (dcol x5)) (ix2 n f) * dcol x5 (ix2 n z1) + brow (ix2 z1 f)) 0 from rfl).trans ?_
  refine congrArg (fun t => max (t + brow (ix2 z1 f)) 0) ?_
  exact (congrArg₂ (· * ·) hS (dcol_at x5 n)).trans hF.symm

variable (x0 : S100000x128.Idx → EReal) (x1 : S128x128.Idx → EReal) (x2 : S128.Idx → EReal)
  (x3 : S128x64.Idx → EReal) (x4 : S64.Idx → EReal)

/-- The first layer's activation at an entry: kernel's is reference's, given the reference's read there. -/
theorem h1K_at
    (H1 : ∀ (n : Fin 100000) (f : Fin 128), val_main_v46 (F := Ideal) x0 x1 x2 x5 (ix2 n f)
      = max ((0 + ∑ e : Fin 1700000, if hits x5 e n then
            (∑ k : Fin 128, x0 (ix2 (srcRow x5 e) k) * x1 (ix2 k f)) * (dnode x5 (srcRow x5 e) * dnode x5 (dstRow x5 e)) else 0)
          + x2 (ix1 f)) 0) (n : Fin 100000) (f : Fin 128) :
    h1K x0 x1 x2 x5 (ix2 n f) = val_main_v46 (F := Ideal) x0 x1 x2 x5 (ix2 n f) := by
  refine (show h1K x0 x1 x2 x5 (ix2 n f)
      = scaleBiasRelu ((fun y => agg128 y x5) (denseScaled x0 x1 (dcol x5))) (dcol x5) (b1row x2) (ix2 n f) from rfl).trans ?_
  refine (layer_at x5 (fun y => agg128 y x5) (fun y n f => agg128_at x5 y n f) x0 x1 (b1row x2) n f).trans ?_
  refine Eq.trans ?_ (H1 n f).symm
  exact congrArg (fun t => max t 0) (congrArg (HAdd.hAdd _) (b1row_at x2 f))

/-- As whole arrays. -/
theorem h1K_eq
    (H1 : ∀ (n : Fin 100000) (f : Fin 128), val_main_v46 (F := Ideal) x0 x1 x2 x5 (ix2 n f)
      = max ((0 + ∑ e : Fin 1700000, if hits x5 e n then
            (∑ k : Fin 128, x0 (ix2 (srcRow x5 e) k) * x1 (ix2 k f)) * (dnode x5 (srcRow x5 e) * dnode x5 (dstRow x5 e)) else 0)
          + x2 (ix1 f)) 0) :
    h1K x0 x1 x2 x5 = val_main_v46 (F := Ideal) x0 x1 x2 x5 :=
  funext fun i => (congrArg (h1K x0 x1 x2 x5) (eq_ix2 i)).trans
    ((h1K_at x5 x0 x1 x2 H1 (rowOf i) (colOf i)).trans (congrArg (val_main_v46 (F := Ideal) x0 x1 x2 x5) (eq_ix2 i)).symm)

/-- The result at an entry: kernel's is reference's, given the reference's two reads at an entry. -/
theorem kOut_at
    (H1 : ∀ (n : Fin 100000) (f : Fin 128), val_main_v46 (F := Ideal) x0 x1 x2 x5 (ix2 n f)
      = max ((0 + ∑ e : Fin 1700000, if hits x5 e n then
            (∑ k : Fin 128, x0 (ix2 (srcRow x5 e) k) * x1 (ix2 k f)) * (dnode x5 (srcRow x5 e) * dnode x5 (dstRow x5 e)) else 0)
          + x2 (ix1 f)) 0)
    (H2 : ∀ (n : Fin 100000) (f : Fin 64), val_main_v64 (F := Ideal) x0 x1 x2 x3 x4 x5 (ix2 n f)
      = max ((0 + ∑ e : Fin 1700000, if hits x5 e n then
            (∑ k : Fin 128, val_main_v46 (F := Ideal) x0 x1 x2 x5 (ix2 (srcRow x5 e) k) * x3 (ix2 k f))
              * (dnode x5 (srcRow x5 e) * dnode x5 (dstRow x5 e)) else 0)
          + x4 (ix1 f)) 0) (n : Fin 100000) (f : Fin 64) :
    kOut x0 x1 x2 x3 x4 x5 (ix2 n f) = val_main_v64 (F := Ideal) x0 x1 x2 x3 x4 x5 (ix2 n f) := by
  refine (show kOut x0 x1 x2 x3 x4 x5 (ix2 n f)
      = scaleBiasRelu ((fun y => agg64 y x5) (denseScaled (h1K x0 x1 x2 x5) x3 (dcol x5))) (dcol x5) (b2row x4) (ix2 n f) from rfl).trans ?_
  refine (congrArg (fun hh => scaleBiasRelu ((fun y => agg64 y x5) (denseScaled hh x3 (dcol x5))) (dcol x5) (b2row x4) (ix2 n f))
    (h1K_eq x5 x0 x1 x2 H1)).trans ?_
  refine (layer_at x5 (fun y => agg64 y x5) (fun y n f => agg64_at x5 y n f) (val_main_v46 (F := Ideal) x0 x1 x2 x5) x3 (b2row x4) n f).trans ?_
  refine Eq.trans ?_ (H2 n f).symm
  exact congrArg (fun t => max t 0) (congrArg (HAdd.hAdd _) (b2row_at x4 f))

/-- THE RESULTS AGREE as whole arrays. -/
theorem kOut_eq
    (H1 : ∀ (n : Fin 100000) (f : Fin 128), val_main_v46 (F := Ideal) x0 x1 x2 x5 (ix2 n f)
      = max ((0 + ∑ e : Fin 1700000, if hits x5 e n then
            (∑ k : Fin 128, x0 (ix2 (srcRow x5 e) k) * x1 (ix2 k f)) * (dnode x5 (srcRow x5 e) * dnode x5 (dstRow x5 e)) else 0)
          + x2 (ix1 f)) 0)
    (H2 : ∀ (n : Fin 100000) (f : Fin 64), val_main_v64 (F := Ideal) x0 x1 x2 x3 x4 x5 (ix2 n f)
      = max ((0 + ∑ e : Fin 1700000, if hits x5 e n then
            (∑ k : Fin 128, val_main_v46 (F := Ideal) x0 x1 x2 x5 (ix2 (srcRow x5 e) k) * x3 (ix2 k f))
              * (dnode x5 (srcRow x5 e) * dnode x5 (dstRow x5 e)) else 0)
          + x4 (ix1 f)) 0) :
    kOut x0 x1 x2 x3 x4 x5 = val_main_v64 (F := Ideal) x0 x1 x2 x3 x4 x5 :=
  funext fun i => (congrArg (kOut x0 x1 x2 x3 x4 x5) (eq_ix2 i)).trans
    ((kOut_at x5 x0 x1 x2 x3 x4 H1 H2 (rowOf i) (colOf i)).trans
      (congrArg (val_main_v64 (F := Ideal) x0 x1 x2 x3 x4 x5) (eq_ix2 i)).symm)

end Cert.Gcn.Bridge

end
-- ==== Proof.lean ====
/-
  The certificate of a two-layer graph convolution, a Pallas kernel pipeline against its plain reference, over the
  extended reals.

  Both programs compute `relu (Â · relu (Â · x · W₁ + b₁) · W₂ + b₂)` with `Â = D^{-1/2} (A + I) D^{-1/2}`: the edge
  list gets a self loop per node, each node's factor is the inverse square root of its in-degree clipped below at
  one, and a layer sends `(h · W)[src e]` along every edge `e` to `dst e`.  The reference weighs each message by
  `d[src e] · d[dst e]`; the kernel scales the rows of `h · W` by `d` inside a dense-layer kernel before the gather,
  adds the messages up unweighted, and scales the sums by `d` again inside the next kernel, which also adds the bias,
  clips at zero and (between the layers) applies the next dense layer.  The two agree entry by entry because the
  target's factor is constant over the edges that land on a node, is never negative and never `⊤`, and such a factor
  comes out of a sum of extended reals (Proof/Algebra.lean, Proof/Bridge.lean).

  The frames of the two kernel programs and the regions' staging are generated; the reference's run is its generated
  run.  The kernel's value is read off the run of its six segments (Proof/KernelRun.lean): each region's output
  array as one function of the arrays it was entered with (Proof/Region0.lean … Region2.lean), folded through the
  three stretches of host operations (Proof/KernelValue.lean … KernelValueC.lean); the reference's is read at an
  entry in Proof/RefValue.lean.  The ideal pass rewrote nothing, so the kernel's idealization is its own text.
-/
import proofs.«163434_j85229331021973_2_alg».proof.Defs
import proofs.«163434_j85229331021973_2_alg».proof.Proof.Gen.Kernel
import proofs.«163434_j85229331021973_2_alg».proof.Proof.Gen.Kernel.Skeleton
import proofs.«163434_j85229331021973_2_alg».proof.Proof.Gen.Kernel.Launch
import proofs.«163434_j85229331021973_2_alg».proof.Proof.Gen.Kernel.Points
import proofs.«163434_j85229331021973_2_alg».proof.Proof.Gen.Kernel.Frame
import proofs.«163434_j85229331021973_2_alg».proof.Proof.Gen.KernelIdeal
import proofs.«163434_j85229331021973_2_alg».proof.Proof.Gen.KernelIdeal.Skeleton
import proofs.«163434_j85229331021973_2_alg».proof.Proof.Gen.KernelIdeal.Launch
import proofs.«163434_j85229331021973_2_alg».proof.Proof.Gen.KernelIdeal.Points
import proofs.«163434_j85229331021973_2_alg».proof.Proof.Gen.KernelIdeal.Frame
import proofs.«163434_j85229331021973_2_alg».proof.Proof.Gen.ReferenceIdeal
import proofs.«163434_j85229331021973_2_alg».proof.Proof.Gen.ReferenceIdeal.Run
import proofs.«163434_j85229331021973_2_alg».proof.Proof.Gen.ReferenceIdeal.Read
import proofs.«163434_j85229331021973_2_alg».proof.Proof.Gen.Pre_finite_inputs
import proofs.«163434_j85229331021973_2_alg».proof.Proof.KernelRun
import proofs.«163434_j85229331021973_2_alg».proof.Proof.KernelValueC
import proofs.«163434_j85229331021973_2_alg».proof.Proof.RefValue
import proofs.«163434_j85229331021973_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories that agree on the arguments the two idealized programs end with the same result array: the
    kernel's is its function of the arguments (the fold of its segments), the reference's is its composed term, and
    the two functions agree entry by entry. -/
theorem algebraic : Cert.algebraic_KernelIdeal_ReferenceIdeal := by
  intro m ρ m' ρ' _ hagree
  refine ⟨fun c => Cert.KernelIdeal.Gen.W6 m ρ c (Proc.devRef .tc Cert.KernelIdeal.main_v39),
    Cert.KernelIdeal.RunOut.run_out m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine (Cert.ReferenceIdeal.Read.val_main_v64_eq m' c).trans ?_
  rw [a0, a1, a2, a3, a4, a5]
  exact ((Cert.KernelIdeal.KValue.w6_v39 m ρ c).trans
    (Cert.Gcn.Bridge.kOut_eq _ _ _ _ _ _ (Cert.Gcn.Ref.ref_h1_at _ _ _ _) (Cert.Gcn.Ref.ref_out_at _ _ _ _ _ _))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
